-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S1000x128 : Shape := ⟨2, ![1000, 128]⟩
abbrev S32x200x128 : Shape := ⟨3, ![32, 200, 128]⟩
abbrev S819200x128 : Shape := ⟨2, ![819200, 128]⟩
abbrev S200x128 : Shape := ⟨2, ![200, 128]⟩
abbrev S128x128 : Shape := ⟨2, ![128, 128]⟩
abbrev S_ : Shape := ⟨0, ![]⟩
abbrev S1x200x128 : Shape := ⟨3, ![1, 200, 128]⟩
abbrev S1x128 : Shape := ⟨2, ![1, 128]⟩
abbrev S128 : Shape := ⟨1, ![128]⟩
abbrev S4096x200x128 : Shape := ⟨3, ![4096, 200, 128]⟩

abbrev nBuf : Table → Nat
  | .hbm => 5
  | .local .scVector .vmem => 2
  | _ => 0

abbrev bufTy : (tb : Table) → Fin (nBuf tb) → BufTy
  | .hbm, ⟨0, _⟩ => ⟨S4096x200, .i32⟩
  | .hbm, ⟨1, _⟩ => ⟨S1000x128, .f32⟩
  | .hbm, ⟨2, _⟩ => ⟨S32x200x128, .i32⟩
  | .hbm, ⟨3, _⟩ => ⟨S819200x128, .f32⟩
  | .hbm, ⟨4, _⟩ => ⟨S4096x200x128, .f32⟩
  | .local .scVector .vmem, ⟨0, _⟩ => ⟨S200x128, .i32⟩
  | .local .scVector .vmem, ⟨1, _⟩ => ⟨S128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k0_t1_loop : Scf.Loop 32 :=
  let c0_i32_0 : BitVec 32 := 0#32
  let c200_i32 : BitVec 32 := 200#32
  let v3 : BitVec 32 := Scalar.addi c0_i32_0 c200_i32
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c0_i32_2 : BitVec 32 := 0#32
  ![arg8.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg8 : BitVec 32 := Scf.iv c0_i32_0 c1_i32 k0_t1
  let c128_i32 : BitVec 32 := 128#32
  let v10 : BitVec 32 := Scalar.muli arg8 c128_i32
  let v11 : BitVec 32 := Scalar.addi v2 v10
  let c0_i32_8_r1 : BitVec 32 := 0#32
  ![v11.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S32x200x128 : S4096x200.ShapeCasts S32x200x128
  squeezes_S1x200x128_S200x128 : S1x200x128.Squeezes S200x128
  squeezes_S1x128_S128 : S1x128.Squeezes S128
  inb_S1000x128_S1000x128_0_0 : ∀ a, (![0, 0] : Fin 2 → Nat) a + S1000x128.size a ≤ S1000x128.size a
  gathers_S1000x128_S128x128 : S1000x128.Gathers 0 S128x128
  shapeCasts_S819200x128_S4096x200x128 : S819200x128.ShapeCasts S4096x200x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x200x128.size a ≤ S32x200x128.size a
  k0_t1_ok : k0_t1_loop.OK
  k0_off2_inb : ∀ k0_t1 : Fin k0_t1_loop.trips, ∀ a, (k0_off2 k0_t1) a + S1x128.size a ≤ S200x128.size a
  k0_off3_inb : ∀ (i : grid0.Coords) (k0_t1 : Fin k0_t1_loop.trips), ∀ a, (k0_off3 i k0_t1) a + S128x128.size a ≤ S819200x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S4096x200 : Shape := ⟨2, ![4096, 200]⟩
abbrev S1000x128 : Shape := ⟨2, ![1000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S1000x128_S4096x200x1_S4096x200x128_2_0_n_n_0_2_1128_wf : GatherDims.WF S1000x128 S4096x200x1 S4096x200x128 [2] [0] [] [0] [] 2 ![1, 128]

variable [Facts₀]

def gather_S1000x128_S4096x200x1_S4096x200x128_2_0_n_n_0_2_1128 : GatherDims S1000x128 S4096x200x1 S4096x200x128 where
  offsetDims := [2]
  collapsedSliceDims := [0]
  operandBatchingDims := []
  startIndicesBatchingDims := []
  startIndexMap := [0]
  indexVectorDim := 2
  sliceSizes := ![1, 128]
  wf := gather_S1000x128_S4096x200x1_S4096x200x128_2_0_n_n_0_2_1128_wf

class Facts : Prop extends Facts₀ where

variable [Facts]
-- ==== Proof.Range.lean ====
/-
  What the precondition says of the index words.

  The precondition is the conjunction of two reductions by "and": one over the table (every entry finite), one
  over the index array, whose element at (b, n) is the conjunction of two signed comparisons, 0 <= word and
  word <= 999.  When the whole predicate is 1 the second reduction is 1, hence each of its elements is 1, hence
  every index word, read signed, lies in [0, 999]; read unsigned it is then the same number, below 1000.
-/
import proofs.«202864_g79886391705942_cont_9to1_m_381_1_alg».proof.Pre_input_domain
import proofs.«202864_g79886391705942_cont_9to1_m_381_1_alg».proof.Proof.Gen.Pre_input_domain
import Idealize.ShloMosaic.Lib.ReduceAll

namespace Cert.Proof.Range

open Idealize.ShloMosaic

/-- The scalar shape has exactly one index. -/
instance : Subsingleton Cert.Pre_input_domain.S_.Idx := ⟨fun a b => funext fun d => d.elim0⟩

/-- A word that passes both signed comparisons, 0 <= w and w <= 999, lies in [0, 999] read signed. -/
theorem word_range (w : BitVec 32)
    (e : IntOp.andi (IntOp.cmpi .sge w 0#32) (IntOp.cmpi .sle w 999#32) = 1#1) : 0 ≤ w.toInt ∧ w.toInt ≤ 999 := by
  obtain ⟨h0, h1⟩ := IntOp.andi_eq_one.1 e
  rw [IntOp.cmpi_sge] at h0
  rw [IntOp.cmpi_sle] at h1
  rw [show (0#32 : BitVec 32).toInt = 0 from by decide] at h0
  rw [show (999#32 : BitVec 32).toInt = 999 from by decide] at h1
  exact ⟨h0, h1⟩

/-- A word in [0, 999] read signed is below 1000 read unsigned. -/
theorem toNat_lt_of_toInt {w : BitVec 32} (h : 0 ≤ w.toInt ∧ w.toInt ≤ 999) : w.toNat < 1000 := by
  have := BitVec.toInt_eq_toNat_cond w
  have := w.isLt
  split_ifs at * <;> omega

/-- Under the precondition every index word lies in [0, 999], read signed. -/
theorem of_pre_int {F : FTy → Type} [FloatOps F] [Cert.Pre_input_domain.Facts]
    (ids : IVec Cert.Pre_input_domain.S4096x200 32) (tbl : FVec F Cert.Pre_input_domain.S1000x128 .f32)
    (h : Cert.Pre_input_domain.fn (F := F) ids tbl = fun _ => 1#1) :
    ∀ i, 0 ≤ (ids i).toInt ∧ (ids i).toInt ≤ 999 := by
  intro i
  have e := congrFun h (fun d => d.elim0)
  dsimp only [Cert.Pre_input_domain.fn] at e
  obtain ⟨-, e2⟩ := IntOp.andi_eq_one.1 e
  have e3 := Host.reduce_andi_all _ _ _ _ _ e2 i
  exact word_range (ids i) e3

/-- Under the precondition every index word, read unsigned, is below 1000. -/
theorem of_pre {F : FTy → Type} [FloatOps F] [Cert.Pre_input_domain.Facts]
    (ids : IVec Cert.Pre_input_domain.S4096x200 32) (tbl : FVec F Cert.Pre_input_domain.S1000x128 .f32)
    (h : Cert.Pre_input_domain.fn (F := F) ids tbl = fun _ => 1#1) : ∀ i, (ids i).toNat < 1000 :=
  fun i => toNat_lt_of_toInt (of_pre_int ids tbl h i)

end Cert.Proof.Range
-- ==== Proof.Spec.lean ====
/-
  The lookup both programs compute, as one function of the two argument arrays.

  The index array has 4096 x 200 words; the table has 1000 rows of 128 entries.  Entry (b, n, l) of the result is
  entry l of the table row named by the word at (b, n).  A word names the row equal to its unsigned value; so that
  the function is total the value is reduced below 1000, which changes nothing for a word already in range.

  The same lookup is also stated over the flat arrangement in which the 819200 words are taken in row-major order
  and grouped as 32 x 200 x 128: row r of the flat result (819200 rows of 128 entries) is the table row named by the
  word at (r / 25600, r % 25600 / 128, r % 128).
-/
import Idealize.ShloMosaic.PureOps
import Idealize.ShloMosaic.Lib.ValueIdx

namespace Cert.Spec

open Idealize.ShloMosaic Idealize.ShloMosaic.ValueIdx

/-- The table row a word names: its unsigned value, reduced below the table's 1000 rows. -/
def rowOf (w : BitVec 32) : Fin 1000 := ⟨w.toNat % 1000, Nat.mod_lt _ (by decide)⟩

/-- On a word in range the reduction is the identity. -/
theorem rowOf_val_of_lt {w : BitVec 32} (h : w.toNat < 1000) : (rowOf w).val = w.toNat := Nat.mod_eq_of_lt h

/-- The lookup: entry (b, n, l) is entry l of the table row the word at (b, n) names. -/
def G {α : Type} (ids : (⟨2, ![4096, 200]⟩ : Shape).Idx → BitVec 32) (tbl : (⟨2, ![1000, 128]⟩ : Shape).Idx → α) :
    (⟨3, ![4096, 200, 128]⟩ : Shape).Idx → α :=
  fun j => tbl (ix2 (rowOf (ids (ix2 (n0 := 4096) (n1 := 200) (j 0) (j 1)))) (show Fin 128 from j 2))

theorem flat_lt0 (x : (⟨2, ![819200, 128]⟩ : Shape).Idx) : (x 0).val / 25600 < 32 :=
  Nat.div_lt_of_lt_mul (idx2_lt0 x)
theorem flat_lt1 (x : (⟨2, ![819200, 128]⟩ : Shape).Idx) : (x 0).val % 25600 / 128 < 200 :=
  Nat.div_lt_of_lt_mul (Nat.mod_lt _ (by decide))
theorem flat_lt2 (x : (⟨2, ![819200, 128]⟩ : Shape).Idx) : (x 0).val % 128 < 128 := Nat.mod_lt _ (by decide)

/-- The same lookup over the flat arrangement: row r of the result is the table row named by the word at
    (r / 25600, r % 25600 / 128, r % 128) of the words grouped 32 x 200 x 128. -/
def Gflat {α : Type} (ids3 : (⟨3, ![32, 200, 128]⟩ : Shape).Idx → BitVec 32) (tbl : (⟨2, ![1000, 128]⟩ : Shape).Idx → α) :
    (⟨2, ![819200, 128]⟩ : Shape).Idx → α :=
  fun x => tbl (ix2 (rowOf (ids3 (ix3 (n0 := 32) (n1 := 200) (n2 := 128) ⟨(x 0).val / 25600, flat_lt0 x⟩
    ⟨(x 0).val % 25600 / 128, flat_lt1 x⟩ ⟨(x 0).val % 128, flat_lt2 x⟩))) (show Fin 128 from x 1))

end Cert.Spec
-- ==== Proof.RefRunA.lean ====
/-
  The reference program as a straight line, and its run.

  The program is one call of the lookup function, which itself calls a three-way select.  Unfolding both calls at
  their sites leaves twenty-three operations in a row, each writing one buffer of its own: the index words made
  nonnegative (a negative word would have 1000 added), viewed with a unit last axis, compared against 0 and 999,
  the two comparisons joined and reduced over the unit axis into a mask; the gather of table rows at the words; and
  the final select between the gathered rows and a constant fill, on the mask.  Every weakly fair execution of such
  a line terminates and leaves each buffer at the fold of the operations over the launch contents.
-/
import proofs.«202864_g79886391705942_cont_9to1_m_381_1_alg».proof.Defs
import proofs.«202864_g79886391705942_cont_9to1_m_381_1_alg».proof.Proof.Gen.ReferenceIdeal
import proofs.«202864_g79886391705942_cont_9to1_m_381_1_alg».proof.Proof.Gen.Pre_input_domain
import Idealize.ShloMosaic.Lib.StableHlo.Run

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- The contents of a buffer of shape `s` and element type `e`. -/
abbrev C (F : FTy → Type) (s : Shape) (e : EltTy) : Type := (⟨s, e⟩ : BufTy).Contents (Elt F)

/-- The program's twenty-three operations in order, both calls unfolded at their sites, each over the buffers the
    call's record names. -/
abbrev ops : List (HloOp τ sig (Elt F)) :=
  [ nullary main_call0_c (constantI S_ 32 0#32 : C F S_ .i32),
    unary main_call0_c main_call0_v0 (broadcastInDim S4096x200 ![] bcast_S_S4096x200 : C F S_ .i32 → C F S4096x200 .i32),
    binary main_arg0 main_call0_v0 main_call0_v1 (cmpi .slt : C F S4096x200 .i32 → C F S4096x200 .i32 → C F S4096x200 .i1),
    nullary main_call0_c_0 (constantI S_ 32 1000#32 : C F S_ .i32),
    unary main_call0_c_0 main_call0_v2 (broadcastInDim S4096x200 ![] bcast_S_S4096x200 : C F S_ .i32 → C F S4096x200 .i32),
    binary main_arg0 main_call0_v2 main_call0_v3 (addi : C F S4096x200 .i32 → C F S4096x200 .i32 → C F S4096x200 .i32),
    ternary main_call0_v1 main_call0_v3 main_arg0 main_call0_v4
      (select : C F S4096x200 .i1 → C F S4096x200 .i32 → C F S4096x200 .i32 → C F S4096x200 .i32),
    unary main_call0_v4 main_call0_v5
      (broadcastInDim S4096x200x1 ![0, 1] bcast_S4096x200_S4096x200x1_0_1 : C F S4096x200 .i32 → C F S4096x200x1 .i32),
    nullary main_call0_c_1 (constantI S1 32 999#32 : C F S1 .i32),
    nullary main_call0_c_2 (constantI S_ 32 0#32 : C F S_ .i32),
    unary main_call0_c_2 main_call0_v6 (broadcastInDim S4096x200x1 ![] bcast_S_S4096x200x1 : C F S_ .i32 → C F S4096x200x1 .i32),
    binary main_call0_v5 main_call0_v6 main_call0_v7
      (cmpi .sge : C F S4096x200x1 .i32 → C F S4096x200x1 .i32 → C F S4096x200x1 .i1),
    unary main_call0_c_1 main_call0_v8 (broadcastInDim S1x1x1 ![2] bcast_S1_S1x1x1_2 : C F S1 .i32 → C F S1x1x1 .i32),
    unary main_call0_v8 main_call0_v9
      (broadcastInDim S4096x200x1 ![0, 1, 2] bcast_S1x1x1_S4096x200x1_0_1_2 : C F S1x1x1 .i32 → C F S4096x200x1 .i32),
    binary main_call0_v5 main_call0_v9 main_call0_v10
      (cmpi .sle : C F S4096x200x1 .i32 → C F S4096x200x1 .i32 → C F S4096x200x1 .i1),
    binary main_call0_v7 main_call0_v10 main_call0_v11
      (andi : C F S4096x200x1 .i1 → C F S4096x200x1 .i1 → C F S4096x200x1 .i1),
    nullary main_call0_c_3 (constantI S_ 1 1#1 : C F S_ .i1),
    binary main_call0_v11 main_call0_c_3 main_call0_v12
      ((fun x v => Host.reduce IntOp.andi x v reducesTo_S4096x200x1_S4096x200_d2 h_S_)
        : C F S4096x200x1 .i1 → C F S_ .i1 → C F S4096x200 .i1),
    binary main_arg1 main_call0_v5 main_call0_v13
      ((fun x i => Host.gather gather_S1000x128_S4096x200x1_S4096x200x128_2_0_n_n_0_2_1128 x i)
        : C F S1000x128 .f32 → C F S4096x200x1 .i32 → C F S4096x200x128 .f32),
    unary main_call0_v12 main_call0_v14
      (broadcastInDim S4096x200x128 ![0, 1] bcast_S4096x200_S4096x200x128_0_1 : C F S4096x200 .i1 → C F S4096x200x128 .i1),
    nullary main_call0_cst (constant S_ .f32 0x7FC00000#32 : C F S_ .f32),
    unary main_call0_cst main_call0_v15
      (broadcastInDim S4096x200x128 ![] bcast_S_S4096x200x128 : C F S_ .f32 → C F S4096x200x128 .f32),
    ternary main_call0_v14 main_call0_v13 main_call0_v15 main_v0
      (select : C F S4096x200x128 .i1 → C F S4096x200x128 .f32 → C F S4096x200x128 .f32 → C F S4096x200x128 .f32) ]

attribute [local irreducible] Host.reduce Host.gather in
/-- The program is that straight line: the two functions unfolded at their calls, sequencing reassociated; a call's
    typed reference to a buffer is the buffer, and contents moved along a buffer's own type are the contents. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of the program terminates, and every buffer ends
    at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefTerm.lean ====
/-
  The reference's result as one pure term of its two argument arrays.

  In order: the index words with 1000 added to the negative ones; the same words viewed with a unit last axis; the
  mask, which is the conjunction of the two signed comparisons 0 <= word and word <= 999, reduced by "and" over the
  unit axis; and the result, which at (b, n, l) is the gathered table entry where the mask at (b, n) is 1 and a
  constant fill elsewhere.  The gather reads the table row whose number is the word at (b, n, 0), read signed and
  clamped into [0, 999].
-/
import proofs.«202864_g79886391705942_cont_9to1_m_381_1_alg».proof.ReferenceIdeal
import proofs.«202864_g79886391705942_cont_9to1_m_381_1_alg».proof.Proof.Gen.ReferenceIdeal

noncomputable section

namespace Cert.Proof.Ref

open Cert.ReferenceIdeal Cert.ReferenceIdeal.Gen Idealize.ShloMosaic

variable {F : FTy → Type} [FloatOps F]

/-- The index words made nonnegative: a negative word has 1000 added, any other is kept. -/
def wrapped (ids : IVec S4096x200 32) : IVec S4096x200 32 :=
  select (cmpi .slt ids (broadcastInDim S4096x200 ![] bcast_S_S4096x200 (constantI S_ 32 0#32)))
    (addi ids (broadcastInDim S4096x200 ![] bcast_S_S4096x200 (constantI S_ 32 1000#32))) ids

/-- The same words with a unit last axis. -/
def starts (ids : IVec S4096x200 32) : IVec S4096x200x1 32 :=
  broadcastInDim S4096x200x1 ![0, 1] bcast_S4096x200_S4096x200x1_0_1 (wrapped ids)

/-- Word by word: 0 <= word and word <= 999, both signed. -/
def inRange (ids : IVec S4096x200 32) : IVec S4096x200x1 1 :=
  andi (cmpi .sge (starts ids) (broadcastInDim S4096x200x1 ![] bcast_S_S4096x200x1 (constantI S_ 32 0#32)))
    (cmpi .sle (starts ids) (broadcastInDim S4096x200x1 ![0, 1, 2] bcast_S1x1x1_S4096x200x1_0_1_2
      (broadcastInDim S1x1x1 ![2] bcast_S1_S1x1x1_2 (constantI S1 32 999#32))))

/-- The mask: the comparisons reduced by "and" over the unit axis. -/
def mask (ids : IVec S4096x200 32) : IVec S4096x200 1 :=
  Host.reduce IntOp.andi (inRange ids) (constantI S_ 1 1#1) reducesTo_S4096x200x1_S4096x200_d2 h_S_

/-- The table rows gathered at the words. -/
def gathered (ids : IVec S4096x200 32) (tbl : FVec F S1000x128 .f32) : FVec F S4096x200x128 .f32 :=
  Host.gather gather_S1000x128_S4096x200x1_S4096x200x128_2_0_n_n_0_2_1128 tbl (starts ids)

/-- The reference's result: the gathered entry where the mask is 1, the constant fill elsewhere. -/
def value (ids : IVec S4096x200 32) (tbl : FVec F S1000x128 .f32) : FVec F S4096x200x128 .f32 :=
  select (broadcastInDim S4096x200x128 ![0, 1] bcast_S4096x200_S4096x200x128_0_1 (mask ids)) (gathered ids tbl)
    (broadcastInDim S4096x200x128 ![] bcast_S_S4096x200x128 (constant S_ .f32 0x7FC00000#32))

end Cert.Proof.Ref

end
-- ==== Proof.RefRunB.lean ====
/-
  The reference's run with its result named.

  The fold of the twenty-three operations, read at the result buffer, is the pure term of the two arguments' launch
  contents (each operation's result substituted into the next); read at an argument buffer it is the launch
  contents, no operation writing there.  So every weakly fair execution ends with the result buffer at that term
  and both arguments unchanged.
-/
import proofs.«202864_g79886391705942_cont_9to1_m_381_1_alg».proof.Proof.RefRunA
import proofs.«202864_g79886391705942_cont_9to1_m_381_1_alg».proof.Proof.RefTerm

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- The fold at the result buffer is the pure term of the arguments' contents. -/
theorem out_eq (V : Valuation τ sig (Elt F)) :
    after ops V (main_v0 : DevRef τ sig) = value (V (main_arg0 : DevRef τ sig)) (V (main_arg1 : DevRef τ sig)) := by
  after_results_simp
  rfl

/-- No operation writes the index array. -/
theorem arg0_eq (V : Valuation τ sig (Elt F)) :
    after ops V (main_arg0 : DevRef τ sig) = V (main_arg0 : DevRef τ sig) := by
  after_results_simp

/-- No operation writes the table. -/
theorem arg1_eq (V : Valuation τ sig (Elt F)) :
    after ops V (main_arg1 : DevRef τ sig) = V (main_arg1 : DevRef τ sig) := by
  after_results_simp

/-- From any memory with zero counters every weakly fair execution of the reference terminates with the result
    buffer at the pure term of the arguments and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_fold m ρ)

end Cert.Proof.Ref

end
-- ==== Proof.RefValue.lean ====
/-
  The reference's result is the lookup, when every index word lies in [0, 999].

  A word in that range is not negative, so nothing is added to it; it passes both comparisons, so the mask is 1
  everywhere and the result is the gathered entry everywhere; and the gather's row number, the word read signed and
  clamped into [0, 999], is the word's own value, which is also its value reduced below 1000.  So entry (b, n, l) of
  the result is entry l of the table row named by the word at (b, n).
-/
import proofs.«202864_g79886391705942_cont_9to1_m_381_1_alg».proof.Proof.RefTerm
import proofs.«202864_g79886391705942_cont_9to1_m_381_1_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.Proof.Ref

open Cert.ReferenceIdeal Cert.ReferenceIdeal.Gen Idealize.ShloMosaic Idealize.ShloMosaic.ValueIdx

variable {F : FTy → Type} [FloatOps F]

/-! ## A reduction by "and" over ones -/

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- A reduction by "and" from 1 of an array of ones is 1 at every result index, whatever axes it reduces. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## The words -/

/-- A word that is not negative has nothing added. -/
theorem wrapped_eq (ids : IVec S4096x200 32) (h : ∀ i, 0 ≤ (ids i).toInt) : wrapped ids = ids := by
  funext i
  show Scalar.select (IntOp.cmpi .slt (ids i) 0#32) (IntOp.addi (ids i) 1000#32) (ids i) = ids i
  have hn : ¬ IntOp.cmpi .slt (ids i) 0#32 = 1#1 := by
    rw [IntOp.cmpi_slt, show (0#32 : BitVec 32).toInt = 0 from by decide]
    have := h i
    omega
  rw [eq_zero_of_ne_one hn, select_zero]

/-- The words with a unit last axis, at (b, n, 0), are the words at (b, n). -/
theorem starts_apply (ids : IVec S4096x200 32) (b : Fin 4096) (n : Fin 200) (u : Fin 1) :
    starts ids (ix3 b n u) = wrapped ids (ix2 b n) := by
  unfold starts
  exact broadcastInDim_apply _ _ _ (ix3 b n u) (ix2 b n) (fun a => match a with | ⟨0, _⟩ => rfl | ⟨1, _⟩ => rfl)

/-- A word in [0, 999] passes both comparisons. -/
theorem inRange_apply (ids : IVec S4096x200 32) (h : ∀ i, 0 ≤ (ids i).toInt ∧ (ids i).toInt ≤ 999)
    (j : S4096x200x1.Idx) : inRange ids j = 1#1 := by
  obtain ⟨b, n, u, rfl⟩ : ∃ (b : Fin 4096) (n : Fin 200) (u : Fin 1), j = ix3 b n u := ⟨j 0, j 1, j 2, eq_ix3 j⟩
  show IntOp.andi (IntOp.cmpi .sge (starts ids (ix3 b n u)) 0#32) (IntOp.cmpi .sle (starts ids (ix3 b n u)) 999#32) = 1#1
  rw [starts_apply, wrapped_eq ids (fun i => (h i).1)]
  refine IntOp.andi_eq_one.2 ⟨IntOp.cmpi_sge.2 ?_, IntOp.cmpi_sle.2 ?_⟩
  · rw [show (0#32 : BitVec 32).toInt = 0 from by decide]; exact (h _).1
  · rw [show (999#32 : BitVec 32).toInt = 999 from by decide]; exact (h _).2

/-- The mask is 1 everywhere. -/
theorem mask_apply (ids : IVec S4096x200 32) (h : ∀ i, 0 ≤ (ids i).toInt ∧ (ids i).toInt ≤ 999)
    (j : S4096x200.Idx) : mask ids j = 1#1 :=
  reduce_andi_ones _ _ _ _ (inRange_apply ids h) (fun _ => rfl) j

/-! ## The gather -/

/-- The gather read at (b, n, l): entry l of the table row r, where r is the start word at (b, n, 0), read signed
    and clamped into [0, 999].  On the table's row axis the operand coordinate is the clamped start (that axis is
    collapsed: no offset); on its entry axis it is the result's last coordinate (no start: the start index names
    the row axis only). -/
theorem gather_apply {α : Type} {w : Nat} (x : S1000x128.Idx → α) (idx : IVec S4096x200x1 w)
    (b : Fin 4096) (n : Fin 200) (l : Fin 128) (r : Fin 1000) (hr : r.val = min (idx (ix3 b n 0)).toInt.toNat 999) :
    Host.gather gather_S1000x128_S4096x200x1_S4096x200x128_2_0_n_n_0_2_1128 x idx (ix3 b n l) = x (ix2 r l) := by
  unfold Host.gather
  congr 1
  funext a
  refine Fin.ext ?_
  match a with
  | ⟨0, _⟩ =>
    show gather_S1000x128_S4096x200x1_S4096x200x128_2_0_n_n_0_2_1128.start (ix3 b n l) idx 0 + gather_S1000x128_S4096x200x1_S4096x200x128_2_0_n_n_0_2_1128.batchCoord (ix3 b n l) 0
        + gather_S1000x128_S4096x200x1_S4096x200x128_2_0_n_n_0_2_1128.offCoord (ix3 b n l) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x128_S4096x200x1_S4096x200x128_2_0_n_n_0_2_1128.startIndexMap from List.mem_singleton.mpr rfl)]
    have hsi : gather_S1000x128_S4096x200x1_S4096x200x128_2_0_n_n_0_2_1128.siIdx (ix3 b n l) ⟨List.idxOf (0 : Fin 2) gather_S1000x128_S4096x200x1_S4096x200x128_2_0_n_n_0_2_1128.startIndexMap,
        List.idxOf_lt_length_iff.2 (List.mem_singleton.mpr rfl)⟩ = ix3 b n 0 := by
      funext c; refine Fin.ext ?_
      match c with
      | ⟨0, _⟩ => rfl
      | ⟨1, _⟩ => rfl
      | ⟨2, _⟩ => rfl
    rw [hsi, hr]
    rfl
  | ⟨1, _⟩ =>
    show gather_S1000x128_S4096x200x1_S4096x200x128_2_0_n_n_0_2_1128.start (ix3 b n l) idx 1 + gather_S1000x128_S4096x200x1_S4096x200x128_2_0_n_n_0_2_1128.batchCoord (ix3 b n l) 1
        + gather_S1000x128_S4096x200x1_S4096x200x128_2_0_n_n_0_2_1128.offCoord (ix3 b n l) 1 = l.val
    have hs : gather_S1000x128_S4096x200x1_S4096x200x128_2_0_n_n_0_2_1128.start (ix3 b n l) idx 1 = 0 := by
      unfold GatherDims.start
      rw [dif_neg (show (1 : Fin 2) ∉ gather_S1000x128_S4096x200x1_S4096x200x128_2_0_n_n_0_2_1128.startIndexMap from by decide)]
    have ho : gather_S1000x128_S4096x200x1_S4096x200x128_2_0_n_n_0_2_1128.offCoord (ix3 b n l) 1 = l.val := by
      unfold GatherDims.offCoord
      rw [dif_pos (show (1 : Fin 2) ∈ gather_S1000x128_S4096x200x1_S4096x200x128_2_0_n_n_0_2_1128.sKept from by decide)]
      rfl
    rw [hs, GatherDims.batchCoord_eq_zero _ _ _ List.not_mem_nil, ho]
    omega

/-- A word in [0, 999] read signed, clamped into [0, 999], is its own unsigned value, reduced below 1000 or not. -/
theorem clamp_eq (w : BitVec 32) (h : 0 ≤ w.toInt ∧ w.toInt ≤ 999) : min w.toInt.toNat 999 = w.toNat % 1000 := by
  have h1 := BitVec.toInt_eq_toNat_cond w
  have h2 := w.isLt
  split_ifs at h1 <;> omega

/-! ## The result -/

/-- When every index word lies in [0, 999] the reference's result is the lookup. -/
theorem value_eq (ids : IVec S4096x200 32) (tbl : FVec F S1000x128 .f32)
    (h : ∀ i, 0 ≤ (ids i).toInt ∧ (ids i).toInt ≤ 999) : value ids tbl = Cert.Spec.G ids tbl := by
  funext j
  obtain ⟨b, n, l, rfl⟩ : ∃ (b : Fin 4096) (n : Fin 200) (l : Fin 128), j = ix3 b n l := ⟨j 0, j 1, j 2, eq_ix3 j⟩
  unfold value
  rw [select_apply]
  have hm : broadcastInDim S4096x200x128 ![0, 1] bcast_S4096x200_S4096x200x128_0_1 (mask ids) (ix3 b n l) = 1#1 := by
    rw [broadcastInDim_apply _ _ _ (ix3 b n l) (ix2 b n) (fun a => match a with | ⟨0, _⟩ => rfl | ⟨1, _⟩ => rfl)]
    exact mask_apply ids h _
  rw [hm, select_one]
  unfold gathered
  have hrow : (Cert.Spec.rowOf (ids (ix2 b n))).val = min (starts ids (ix3 b n 0)).toInt.toNat 999 := by
    rw [starts_apply, wrapped_eq ids (fun i => (h i).1)]
    exact (clamp_eq _ (h _)).symm
  rw [gather_apply tbl (starts ids) b n l (Cert.Spec.rowOf (ids (ix2 b n))) hrow]
  rfl

end Cert.Proof.Ref

end
-- ==== Proof.RefRun.lean ====
/-
  The reference's run, with its result stated as the lookup.

  Under the precondition every index word lies in [0, 999]; the reference's result, a pure term of the two argument
  arrays, is then the lookup; so every weakly fair execution of the reference ends with the result buffer holding
  the lookup of the launch contents of the two arguments, and the arguments unchanged.
-/
import proofs.«202864_g79886391705942_cont_9to1_m_381_1_alg».proof.Defs
import proofs.«202864_g79886391705942_cont_9to1_m_381_1_alg».proof.Proof.Gen.ReferenceIdeal
import proofs.«202864_g79886391705942_cont_9to1_m_381_1_alg».proof.Proof.Gen.Pre_input_domain
import proofs.«202864_g79886391705942_cont_9to1_m_381_1_alg».proof.Proof.Spec
import proofs.«202864_g79886391705942_cont_9to1_m_381_1_alg».proof.Proof.Range
import proofs.«202864_g79886391705942_cont_9to1_m_381_1_alg».proof.Proof.RefRunB
import proofs.«202864_g79886391705942_cont_9to1_m_381_1_alg».proof.Proof.RefValue

noncomputable section

namespace Cert.Proof.Ref

open Idealize.ShloMosaic Idealize.SL.Sem

/-- At any float instance: from a memory whose argument arrays satisfy the precondition on every device, every weakly
    fair execution of the reference terminates with the result buffer at the lookup and the arguments unchanged. -/
theorem run_of_pre {F : FTy → Type} [FloatOps F]
    (m : (ℓ : Loc Cert.ReferenceIdeal.nD Cert.ReferenceIdeal.τ Cert.ReferenceIdeal.sig) → Buf (Elt F) ℓ)
    (g : Dev Cert.ReferenceIdeal.nD → PrngReg)
    (hpre : ∀ c : Dev Cert.ReferenceIdeal.nD,
      Cert.Pre_input_domain.fn (F := F)
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        = fun _ => 1#1) :
    θ_run (Cert.ReferenceIdeal.defs (F := F)) (onTc (τ := Cert.ReferenceIdeal.τ) (Cert.ReferenceIdeal.main (F := F)))
      ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Spec.G (m ((c.tc : Thread _ _).loc Cert.ReferenceIdeal.main_arg0))
                (m ((c.tc : Thread _ _).loc Cert.ReferenceIdeal.main_arg1))
        ∧ r.2.mem ((c.tc : Thread _ _).loc Cert.ReferenceIdeal.main_arg0)
            = m ((c.tc : Thread _ _).loc Cert.ReferenceIdeal.main_arg0)
        ∧ r.2.mem ((c.tc : Thread _ _).loc Cert.ReferenceIdeal.main_arg1)
            = m ((c.tc : Thread _ _).loc Cert.ReferenceIdeal.main_arg1)) :=
  (θ_run (Cert.ReferenceIdeal.defs (F := F)) _ _).mono
    (fun _ h c => ⟨(h c).1.trans (value_eq _ _ (Cert.Proof.Range.of_pre_int _ _ (hpre c))), (h c).2⟩)
    (run_value m g)

/-- At the ideal instance, under the certificate's precondition: the reference's run with its result the lookup. -/
theorem run
    (m : (ℓ : Loc Cert.ReferenceIdeal.nD Cert.ReferenceIdeal.τ Cert.ReferenceIdeal.sig) → Buf (Elt Ideal) ℓ)
    (g : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal)))
      ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Spec.G (m ((c.tc : Thread _ _).loc Cert.ReferenceIdeal.main_arg0))
                (m ((c.tc : Thread _ _).loc Cert.ReferenceIdeal.main_arg1))
        ∧ r.2.mem ((c.tc : Thread _ _).loc Cert.ReferenceIdeal.main_arg0)
            = m ((c.tc : Thread _ _).loc Cert.ReferenceIdeal.main_arg0)
        ∧ r.2.mem ((c.tc : Thread _ _).loc Cert.ReferenceIdeal.main_arg1)
            = m ((c.tc : Thread _ _).loc Cert.ReferenceIdeal.main_arg1)) :=
  run_of_pre m g hpre

end Cert.Proof.Ref

end
-- ==== Proof.KICommon.lean ====
/-
  The idealized kernel's program as the launch theorem sees it, and what the call hands each vector subcore.

  The kernel is a lookup run by 32 vector subcores at once.  Subcore s of SparseCore c is worker w = 2 s + c.  It
  copies row w of the index words (grouped 32 x 200 x 128) into its own memory and then, 200 times, fetches the 128
  table rows named by row k of those words and writes them to rows 25600 w + 128 k ... + 127 of the flat result
  (819200 rows of 128 entries).  So worker w alone writes rows 25600 w ... 25600 w + 25599 of the result, and reads
  the index words and the table without changing them.

  Accordingly each worker is handed a read share of the whole index array and of the whole table, and full ownership
  of its own 25600 rows of the result; it hands the shares back, and its rows holding the lookup's values.
-/
import proofs.«202864_g79886391705942_cont_9to1_m_381_1_alg».proof.Defs
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Pipeline.Value
import Idealize.ShloMosaic.Lib.Tactic
import proofs.«202864_g79886391705942_cont_9to1_m_381_1_alg».proof.Proof.Gen.KernelIdeal
import proofs.«202864_g79886391705942_cont_9to1_m_381_1_alg».proof.Proof.Gen.KernelIdeal.Skeleton
import proofs.«202864_g79886391705942_cont_9to1_m_381_1_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The index words (4096 x 200), the table, the words regrouped 32 x 200 x 128, the flat result, the result. -/
abbrev idsLoc (d : Dev nD) : Loc nD τ sig := (SparseCore.T d).loc main_arg0
abbrev tblLoc (d : Dev nD) : Loc nD τ sig := (SparseCore.T d).loc main_arg1
abbrev i3Loc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The index words regrouped: the same words in row-major order at the shape 32 x 200 x 128. -/
def I3 (d : Dev nD) : Buf (Elt F) (i3Loc d) :=
  shapeCast S32x200x128 (m (idsLoc d)) Gen.shapeCasts_S4096x200_S32x200x128

/-- What the flat result holds once every worker is done: the lookup over the regrouped words. -/
def OutF (d : Dev nD) : Buf (Elt F) (oLoc d) := Cert.Spec.Gflat (I3 m d) (m (tblLoc d))

/-! ## A worker's rows of the flat result -/

/-- Worker number of subcore `s` of SparseCore `c`. -/
def wid (c : Fin 2) (s : Fin 16) : ℕ := 2 * s.val + c.val

theorem wid_lt (c : Fin 2) (s : Fin 16) : wid c s < 32 := by unfold wid; omega

theorem tile_inb (c : Fin 2) (s : Fin 16) : ∀ a, (![25600 * wid c s, 0] : Fin 2 → ℕ) a + (![25600, 128] : Fin 2 → ℕ) a ≤ S819200x128.size a := by
  have := wid_lt c s
  intro a; match a with
  | ⟨0, _⟩ => show 25600 * wid c s + 25600 ≤ 819200; omega
  | ⟨1, _⟩ => show 0 + 128 ≤ 128; omega

/-- Rows 25600 w ... 25600 w + 25599 of the flat result, all 128 entries of each. -/
abbrev tileRect (c : Fin 2) (s : Fin 16) : Rect S819200x128 := Rect.unit (s := S819200x128) ![25600 * wid c s, 0] ![25600, 128] (tile_inb c s)
abbrev tileSet (c : Fin 2) (s : Fin 16) : Finset S819200x128.Idx := (tileRect c s).set

theorem mem_tileSet {c : Fin 2} {s : Fin 16} {x : S819200x128.Idx} :
    x ∈ tileSet c s ↔ 25600 * wid c s ≤ (x 0).val ∧ (x 0).val < 25600 * wid c s + 25600 := by
  unfold tileSet tileRect
  rw [Rect.mem_set_unit]
  constructor
  · intro h; exact h 0
  · intro h a; match a with
    | ⟨0, _⟩ => exact h
    | ⟨1, _⟩ => exact ⟨Nat.zero_le _, by have := idx2_lt1 x; show (x 1).val < 0 + 128; omega⟩

/-- The flat result agrees with the lookup on the worker's rows below its chunk `k`. -/
def Done (d : Dev nD) (c : Fin 2) (s : Fin 16) (k : ℕ) (f : Buf (Elt F) (oLoc d)) : Prop :=
  ∀ x : S819200x128.Idx, 25600 * wid c s ≤ (x 0).val → (x 0).val < 25600 * wid c s + 128 * k → f x = OutF m d x

/-! ## What the handshakes carry -/

variable [FloatOps F]

abbrev qC (c : Fin 2) : PosShare TreeShare := pieceOf fullShare 2 (by decide) c
abbrev qT (c : Fin 2) (s : Fin 16) : PosShare TreeShare := pieceOf (qC c) 16 (by decide) s

/-- What worker (c, s) holds at its start (`f` the launch contents of the flat result) and at its end (`f` the
    lookup): a share of the regrouped words and of the table, and its rows of the flat result at `f`. -/
def tileRes (d : Dev nD) (c : Fin 2) (s : Fin 16) (f : Buf (Elt F) (oLoc d)) : sProp 𝕄 :=
  iprop((i3Loc d ↦{qT c s} I3 m d) ∗ (tblLoc d ↦{qT c s} m (tblLoc d)) ∗ oLoc d ↦[tileSet c s]{fullShare} f)

instance tileRes_storable (d : Dev nD) (c : Fin 2) (s : Fin 16) (f : Buf (Elt F) (oLoc d)) : BI.Storable (upEmb : UEmb _ 𝕄) (tileRes m d c s f) := by
  unfold tileRes; infer_instance

/-- The one call: a SparseCore is handed what its sixteen workers need, each worker its own. -/
def P : (K (F := F)).Pay (nD := nD) (Val := Elt F) (Name := ℕ) (U := UU) where
  st := fun q d c => match q with
    | 0 => bigSep Finset.univ fun i : Fin ((K (F := F)).nSub 0) => tileRes m d (Fin.cast nCore_zero c) (Fin.cast nSub_zero i) (m (oLoc d))
  dn := fun q d c => match q with
    | 0 => bigSep Finset.univ fun i : Fin ((K (F := F)).nSub 0) => tileRes m d (Fin.cast nCore_zero c) (Fin.cast nSub_zero i) (OutF m d)
  go := fun q d c i => match q with | 0 => tileRes m d (Fin.cast nCore_zero c) (Fin.cast nSub_zero i) (m (oLoc d))
  td := fun q d c i => match q with | 0 => tileRes m d (Fin.cast nCore_zero c) (Fin.cast nSub_zero i) (OutF m d)
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Proof.KI

end
-- ==== Proof.KIChunk.lean ====
/-
  Where a worker's slices sit, and what its copies carry.

  Worker w = 2 s + c addresses three pieces of the arrays: row w of the regrouped index words (200 x 128 words); row k
  of its own copy of those words (128 words: the trip's list of table rows); and rows 25600 w + 128 k ... + 127 of the
  flat result (the trip's chunk).  This module says which indices of the whole arrays those pieces are, that the
  chunks lie inside the worker's own rows, that every listed word names a table row, and that after a trip the chunk
  holds the lookup's values while the rows below it are untouched.
-/
import proofs.«202864_g79886391705942_cont_9to1_m_381_1_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.Sem
open Idealize.ShloMosaic.ValueIdx

variable {F : FTy → Type}

variable (m : (ℓ : Loc nD τ sig) → Buf (Elt F) ℓ)

local notation "iW" => (Memref.whole Cert.KernelIdeal.main_v0_scv : Memref Cert.KernelIdeal.sig Kind.scVector Space.hbm Cert.KernelIdeal.S32x200x128 EltTy.i32)
local notation "tW" => (Memref.whole Cert.KernelIdeal.main_arg1_scv : Memref Cert.KernelIdeal.sig Kind.scVector Space.hbm Cert.KernelIdeal.S1000x128 EltTy.f32)
local notation "oW" => (Memref.whole Cert.KernelIdeal.main_v1_scv : Memref Cert.KernelIdeal.sig Kind.scVector Space.hbm Cert.KernelIdeal.S819200x128 EltTy.f32)
local notation "sI" => (Memref.whole Cert.KernelIdeal.cc0_scratch0 : Memref Cert.KernelIdeal.sig Kind.scVector Space.vmem Cert.KernelIdeal.S200x128 EltTy.i32)
local notation "sX" => (Memref.whole Cert.KernelIdeal.cc0_scratch1 : Memref Cert.KernelIdeal.sig Kind.scVector Space.vmem Cert.KernelIdeal.S128x128 EltTy.f32)

/-- What the proof asks of the launch memory: every regrouped index word names a table row. -/
def PreOK : Prop := ∀ (d : Dev nD) (x : S32x200x128.Idx), (I3 m d x).toNat < 1000

theorem bound_zero : grid0.bound 0 = 2 := rfl
theorem bound_one : grid0.bound 1 = 16 := rfl
abbrev cV (L : grid0.Coords) : Fin τ.nSC := (L 0).castLE hcore0
abbrev jV (L : grid0.Coords) : Fin τ.nSub := (L 1).castLE hsub0
abbrev cL (L : grid0.Coords) : Fin 2 := Fin.cast bound_zero (L 0)
abbrev sL (L : grid0.Coords) : Fin 16 := Fin.cast bound_one (L 1)

theorem wid_L (L : grid0.Coords) : wid (cL L) (sL L) = 2 * (L 1).val + (L 0).val := rfl

/-- Row w of the regrouped words, as the worker slices it. -/
abbrev v8 (L : grid0.Coords) : Memref sig .scVector .hbm S200x128 .i32 :=
  ((iW).slice (Rect.unit (s := S32x200x128) (k0_off1 L) S1x200x128.size (k0_off1_inb L)) (fun _ => rfl)).squeeze S200x128 squeezes_S1x200x128_S200x128
/-- Row k of the worker's copy of the words: the list of the trip's 128 table rows. -/
abbrev v5 (k : Fin k0_t1_loop.trips) : Memref sig .scVector .vmem S128 .i32 :=
  ((sI).slice (Rect.unit (s := S200x128) (k0_off2 k) S1x128.size (k0_off2_inb k)) (fun _ => rfl)).squeeze S128 squeezes_S1x128_S128
/-- Rows 25600 w + 128 k ... + 127 of the flat result, as the worker slices them. -/
abbrev v14 (L : grid0.Coords) (k : Fin k0_t1_loop.trips) : Memref sig .scVector .hbm S128x128 .f32 :=
  (oW).slice (Rect.unit (s := S819200x128) (k0_off3 L k) S128x128.size (k0_off3_inb L k)) (fun _ => rfl)

theorem trips_le : k0_t1_loop.trips ≤ 200 := k0_t1_abs.2.1

/-! ## Dropping a leading axis of extent one keeps the other coordinates -/

theorem squeeze_row (y : S200x128.Idx) :
    Shape.reshapeEquiv (s := S1x200x128) (s' := S200x128) squeezes_S1x200x128_S200x128.numel_eq y
      = ix3 (n0 := 1) (n1 := 200) (n2 := 128) ⟨0, Nat.one_pos⟩ ⟨(y 0).val, idx2_lt0 y⟩ ⟨(y 1).val, idx2_lt1 y⟩ := by
  apply Shape.reshapeEquiv_eq_of_rowMajor
  rw [Shape.rowMajor_val_three, Shape.rowMajor_val_two]
  show (0 * 200 + (y 0).val) * 128 + (y 1).val = (y 0).val * 128 + (y 1).val
  omega

theorem squeeze_list (x : S128.Idx) :
    Shape.reshapeEquiv (s := S1x128) (s' := S128) squeezes_S1x128_S128.numel_eq x
      = ix2 (n0 := 1) (n1 := 128) ⟨0, Nat.one_pos⟩ ⟨(x 0).val, (x 0).isLt⟩ := by
  apply Shape.reshapeEquiv_eq_of_rowMajor
  rw [Shape.rowMajor_val_two, Shape.rowMajor_val_one]
  show 0 * 128 + (x 0).val = (x 0).val
  omega

/-! ## Where the pieces sit -/

/-- Word (j, l) of the worker's row is word (w, j, l) of the regrouped words. -/
theorem v8_emb (L : grid0.Coords) (y : S200x128.Idx) :
    (v8 L).view.emb y = ix3 (n0 := 32) (n1 := 200) (n2 := 128) ⟨wid (cL L) (sL L), wid_lt _ _⟩ ⟨(y 0).val, idx2_lt0 y⟩ ⟨(y 1).val, idx2_lt1 y⟩ := by
  funext a; apply Fin.ext
  show k0_off1 L a + 1 * ((Shape.reshapeEquiv (s := S1x200x128) (s' := S200x128) squeezes_S1x200x128_S200x128.numel_eq y) a).val = _
  rw [squeeze_row, k0_off1_eq]
  match a with
  | ⟨0, _⟩ => show 2 * (L 1).val + (L 0).val + 1 * 0 = 2 * (L 1).val + (L 0).val; omega
  | ⟨1, _⟩ => show 0 + 1 * (y 0).val = (y 0).val; omega
  | ⟨2, _⟩ => show 0 + 1 * (y 1).val = (y 1).val; omega

/-- Entry j of the trip's list is word (k, j) of the worker's copy. -/
theorem v5_emb (k : Fin k0_t1_loop.trips) (x : S128.Idx) :
    (v5 k).view.emb x = ix2 (n0 := 200) (n1 := 128) ⟨k.val, lt_of_lt_of_le k.isLt trips_le⟩ ⟨(x 0).val, (x 0).isLt⟩ := by
  funext a; apply Fin.ext
  show k0_off2 k a + 1 * ((Shape.reshapeEquiv (s := S1x128) (s' := S128) squeezes_S1x128_S128.numel_eq x) a).val = _
  rw [squeeze_list, k0_off2_eq]
  match a with
  | ⟨0, _⟩ => show k.val + 1 * 0 = k.val; omega
  | ⟨1, _⟩ => show 0 + 1 * (x 0).val = (x 0).val; omega

/-- Entry (j, l) of the trip's chunk is entry (25600 w + 128 k + j, l) of the flat result. -/
theorem v14_emb0 (L : grid0.Coords) (k : Fin k0_t1_loop.trips) (y : S128x128.Idx) :
    (((v14 L k).view.emb y) 0).val = 25600 * wid (cL L) (sL L) + 128 * k.val + (y 0).val := by
  show k0_off3 L k 0 + 1 * (y 0).val = _
  rw [k0_off3_eq, wid_L]
  show 51200 * (L 1).val + 25600 * (L 0).val + 128 * k.val + 1 * (y 0).val = _
  omega
theorem v14_emb1 (L : grid0.Coords) (k : Fin k0_t1_loop.trips) (y : S128x128.Idx) :
    (((v14 L k).view.emb y) 1).val = (y 1).val := by
  show k0_off3 L k 1 + 1 * (y 1).val = _
  rw [k0_off3_eq]
  show 0 + 1 * (y 1).val = _
  omega

/-- An index of the flat result is in the trip's chunk exactly when its row is one of the chunk's 128. -/
theorem mem_chunk (L : grid0.Coords) (k : Fin k0_t1_loop.trips) (x : S819200x128.Idx) :
    x ∈ (v14 L k).view.set ↔ 25600 * wid (cL L) (sL L) + 128 * k.val ≤ (x 0).val ∧ (x 0).val < 25600 * wid (cL L) (sL L) + 128 * k.val + 128 := by
  rw [show (v14 L k).view.set = (Rect.unit (s := S819200x128) (k0_off3 L k) S128x128.size (k0_off3_inb L k)).set from View.set_slice_whole _ _,
    Rect.mem_set_unit, k0_off3_eq, wid_L]
  constructor
  · intro h
    have h0 := h 0
    change 51200 * (L 1).val + 25600 * (L 0).val + 128 * k.val ≤ (x 0).val ∧ (x 0).val < 51200 * (L 1).val + 25600 * (L 0).val + 128 * k.val + 128 at h0
    omega
  · intro h a
    match a with
    | ⟨0, _⟩ =>
      show 51200 * (L 1).val + 25600 * (L 0).val + 128 * k.val ≤ (x 0).val ∧ (x 0).val < 51200 * (L 1).val + 25600 * (L 0).val + 128 * k.val + 128
      omega
    | ⟨1, _⟩ => exact ⟨Nat.zero_le _, by have := idx2_lt1 x; show (x 1).val < 0 + 128; omega⟩

/-- The trip's chunk lies inside the worker's own rows. -/
theorem chunk_sub (L : grid0.Coords) (k : Fin k0_t1_loop.trips) : (v14 L k).view.set ⊆ tileSet (cL L) (sL L) := by
  intro x hx
  have hk : k.val < 200 := lt_of_lt_of_le k.isLt trips_le
  have := (mem_chunk L k x).mp hx
  exact mem_tileSet.mpr (by omega)

/-! ## What the worker's copy of the words holds, and that the listed words name table rows -/

/-- After the first copy the worker's buffer holds row w of the regrouped words. -/
theorem copy_apply (d : Dev nD) (L : grid0.Coords) (fs : Buf (Elt F) ((V d (cV L) (jV L)).loc cc0_scratch0)) (pay : S200x128.Idx → Elt F .i32)
    (hpay : pay = ReadAs.same.apply ((v8 L).view.read (Elt F) (I3 m d))) (y : S200x128.Idx) :
    View.write (Elt F) (sI).view fs pay Finset.univ y
      = I3 m d (ix3 (n0 := 32) (n1 := 200) (n2 := 128) ⟨wid (cL L) (sL L), wid_lt _ _⟩ ⟨(y 0).val, idx2_lt0 y⟩ ⟨(y 1).val, idx2_lt1 y⟩) := by
  subst hpay
  rw [show View.write (Elt F) (sI).view fs _ Finset.univ = _ from View.write_whole_univ _ _ _]
  show (v8 L).view.read (Elt F) (I3 m d) y = _
  rw [View.read_apply, v8_emb]
  exact cast_eq _ _

/-- Every word of the trip's list names a table row. -/
theorem list_in_range (hpre : PreOK m) (d : Dev nD) (L : grid0.Coords) (A : Buf (Elt F) ((V d (cV L) (jV L)).loc cc0_scratch0))
    (hA : ∀ y : S200x128.Idx, A y = I3 m d (ix3 (n0 := 32) (n1 := 200) (n2 := 128) ⟨wid (cL L) (sL L), wid_lt _ _⟩ ⟨(y 0).val, idx2_lt0 y⟩ ⟨(y 1).val, idx2_lt1 y⟩))
    (k : Fin k0_t1_loop.trips) :
    ∀ x, ((v5 k).view.read (Elt F) A x).toNat < S1000x128.size gathers_S1000x128_S128x128.axis := by
  intro x
  have e : (v5 k).view.read (Elt F) A x = A ((v5 k).view.emb x) := (View.read_apply _ _).trans (cast_eq _ _)
  rw [e, hA]
  exact hpre d _

end Cert.Proof.KI

end
-- ==== Proof.KIStep.lean ====
/-
  One trip of a worker's loop, as a statement about values.

  Before trip k the worker's rows below 25600 w + 128 k hold the lookup's values.  The trip writes its 128 x 128 buffer
  to rows 25600 w + 128 k ... + 127, and the buffer's entry (j, l) is entry l of the table row named by word (k, j) of
  the worker's copy of the index words, which is word (w, k, j) of the regrouped words.  Row r = 25600 w + 128 k + j
  has r / 25600 = w, r % 25600 / 128 = k and r % 128 = j, so the entry written at (r, l) is the lookup's value there;
  rows below the chunk are not touched.  Hence after the trip the rows below 25600 w + 128 (k + 1) hold the lookup's
  values.
-/
import proofs.«202864_g79886391705942_cont_9to1_m_381_1_alg».proof.Proof.KIChunk

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.Sem
open Idealize.ShloMosaic.ValueIdx

variable {F : FTy → Type}

variable (m : (ℓ : Loc nD τ sig) → Buf (Elt F) ℓ)

local notation "tW" => (Memref.whole Cert.KernelIdeal.main_arg1_scv : Memref Cert.KernelIdeal.sig Kind.scVector Space.hbm Cert.KernelIdeal.S1000x128 EltTy.f32)
local notation "sX" => (Memref.whole Cert.KernelIdeal.cc0_scratch1 : Memref Cert.KernelIdeal.sig Kind.scVector Space.vmem Cert.KernelIdeal.S128x128 EltTy.f32)

/-- The table, as the worker addresses it for the fetch: all of it. -/
abbrev v6 : Memref sig .scVector .hbm S1000x128 .f32 :=
  (tW).slice (Rect.unit (s := S1000x128) ![0, 0] S1000x128.size inb_S1000x128_S1000x128_0_0) (fun _ => rfl)

theorem v6_emb (z : S1000x128.Idx) : (v6).view.emb z = z := by
  funext a; apply Fin.ext
  match a with
  | ⟨0, _⟩ => show 0 + 1 * (z 0).val = (z 0).val; omega
  | ⟨1, _⟩ => show 0 + 1 * (z 1).val = (z 1).val; omega

/-- The first coordinate of the list entry at row-major position j is j. -/
theorem list_pos (j : Fin 128) (h : S128.numel = 128) : ((S128.rowMajor.symm (j.cast h.symm)) 0).val = j.val := by
  have e := Shape.rowMajor_val_one (S128.rowMajor.symm (j.cast h.symm))
  rw [Equiv.apply_symm_apply] at e
  exact e.symm

theorem done_step (hpre : PreOK m) (d : Dev nD) (L : grid0.Coords) (A : Buf (Elt F) ((V d (cV L) (jV L)).loc cc0_scratch0))
    (hA : ∀ y : S200x128.Idx, A y = I3 m d (ix3 (n0 := 32) (n1 := 200) (n2 := 128) ⟨wid (cL L) (sL L), wid_lt _ _⟩ ⟨(y 0).val, idx2_lt0 y⟩ ⟨(y 1).val, idx2_lt1 y⟩))
    (k : Fin k0_t1_loop.trips) (fx' : Buf (Elt F) ((V d (cV L) (jV L)).loc cc0_scratch1)) (f : Buf (Elt F) (oLoc d))
    (hf : Done m d (cL L) (sL L) k.val f)
    (hn : S128.numel = S128x128.size gathers_S1000x128_S128x128.axis')
    (hin : ∀ x, ((v5 k).view.read (Elt F) A x).toNat < S1000x128.size gathers_S1000x128_S128x128.axis)
    (g : S128x128.Idx → Elt F .f32)
    (hg : g = SparseCore.gatherPayload gathers_S1000x128_S128x128 ((v6).view.read (Elt F) (m (tblLoc d))) (SparseCore.rows ((v5 k).view.read (Elt F) A) hn hin))
    (pay : S128x128.Idx → Elt F .f32)
    (hpay : pay = ReadAs.same.apply ((sX).view.read (Elt F) ((sX).view.writes (Elt F) fx' [⟨Rect.whole cc0_scratch1.ty.shape, g⟩]))) :
    Done m d (cL L) (sL L) (k.val + 1) ((v14 L k).view.writes (Elt F) f [⟨Rect.whole S128x128, pay⟩]) := by
  have hk : k.val < 200 := lt_of_lt_of_le k.isLt trips_le
  intro x hlo hhi
  by_cases hx : (x 0).val < 25600 * wid (cL L) (sL L) + 128 * k.val
  · -- below the chunk: untouched
    rw [View.writes_apply_of_forall_ne]
    · exact hf x hlo hx
    · intro y e
      have h0 := v14_emb0 L k y
      rw [e] at h0
      omega
  · -- inside the chunk
    have hy0 : (x 0).val - (25600 * wid (cL L) (sL L) + 128 * k.val) < 128 := by omega
    obtain ⟨y, rfl⟩ : ∃ y : S128x128.Idx, x = (v14 L k).view.emb y := by
      refine ⟨ix2 (n0 := 128) (n1 := 128) ⟨(x 0).val - (25600 * wid (cL L) (sL L) + 128 * k.val), hy0⟩ ⟨(x 1).val, idx2_lt1 x⟩, ?_⟩
      funext a; apply Fin.ext
      match a with
      | ⟨0, _⟩ =>
        refine ((v14_emb0 L k _).trans ?_).symm
        show 25600 * wid (cL L) (sL L) + 128 * k.val + ((x 0).val - (25600 * wid (cL L) (sL L) + 128 * k.val)) = (x 0).val
        omega
      | ⟨1, _⟩ =>
        show (x 1).val = (((v14 L k).view.emb (ix2 (n0 := 128) (n1 := 128) ⟨(x 0).val - (25600 * wid (cL L) (sL L) + 128 * k.val), hy0⟩ ⟨(x 1).val, idx2_lt1 x⟩)) 1).val
        rw [v14_emb1]
    have hy0' : (y 0).val < 128 := idx2_lt0 y
    have e0 := v14_emb0 L k y
    have e1 := v14_emb1 L k y
    -- what the chunk's write leaves at the entry
    have hw : (v14 L k).view.writes (Elt F) f [⟨Rect.whole S128x128, pay⟩] ((v14 L k).view.emb y) = pay y := by
      have := View.read_writes_cons_emb (v := (v14 L k).view) (f := f) (Val := Elt F) (Rect.whole S128x128) pay [] y
      rw [Rect.emb_whole_apply, View.read_apply] at this
      exact (cast_eq _ _).symm.trans this
    rw [hw]
    subst hpay hg
    -- the buffer's entry is the gathered one
    have hp : ReadAs.same.apply ((sX).view.read (Elt F) ((sX).view.writes (Elt F) fx'
        [⟨Rect.whole cc0_scratch1.ty.shape, SparseCore.gatherPayload gathers_S1000x128_S128x128 ((v6).view.read (Elt F) (m (tblLoc d)))
          (SparseCore.rows ((v5 k).view.read (Elt F) A) hn hin)⟩])) y
        = m (tblLoc d) ((v6).view.emb (gathers_S1000x128_S128x128.idx (SparseCore.rows ((v5 k).view.read (Elt F) A) hn hin) y)) := by
      show ((sX).view.writes (Elt F) fx' [⟨Rect.whole cc0_scratch1.ty.shape, _⟩]) y = _
      have := View.read_writes_cons_emb (v := (sX).view) (f := fx') (Val := Elt F) (Rect.whole cc0_scratch1.ty.shape)
        (SparseCore.gatherPayload gathers_S1000x128_S128x128 ((v6).view.read (Elt F) (m (tblLoc d))) (SparseCore.rows ((v5 k).view.read (Elt F) A) hn hin)) [] y
      rw [Rect.emb_whole_apply] at this
      refine this.trans ?_
      show (v6).view.read (Elt F) (m (tblLoc d)) _ = _
      rw [View.read_apply]; exact cast_eq _ _
    rw [hp, v6_emb]
    unfold OutF Cert.Spec.Gflat
    refine congrArg (m (tblLoc d)) (funext fun b => Fin.ext ?_)
    match b with
    | ⟨0, _⟩ =>
      have ea := congrArg Fin.val (Shape.Gathers.idx_axis gathers_S1000x128_S128x128 (SparseCore.rows ((v5 k).view.read (Elt F) A) hn hin) y)
      refine ea.trans ?_
      show ((v5 k).view.read (Elt F) A (S128.rowMajor.symm ((y gathers_S1000x128_S128x128.axis').cast hn.symm))).toNat = (Cert.Spec.rowOf _).val
      have er : (v5 k).view.read (Elt F) A (S128.rowMajor.symm ((y gathers_S1000x128_S128x128.axis').cast hn.symm))
          = A ((v5 k).view.emb (S128.rowMajor.symm ((y gathers_S1000x128_S128x128.axis').cast hn.symm))) := (View.read_apply _ _).trans (cast_eq _ _)
      rw [er, v5_emb, hA]
      have hq : ((S128.rowMajor.symm ((y gathers_S1000x128_S128x128.axis').cast hn.symm)) 0).val = (y 0).val := list_pos (y 0) hn
      rw [Cert.Spec.rowOf_val_of_lt (hpre d _)]
      refine congrArg (fun z => (I3 m d z).toNat) (funext fun a => Fin.ext ?_)
      match a with
      | ⟨0, _⟩ => show wid (cL L) (sL L) = ((v14 L k).view.emb y 0).val / 25600; rw [e0]; omega
      | ⟨1, _⟩ => show k.val = ((v14 L k).view.emb y 0).val % 25600 / 128; rw [e0]; omega
      | ⟨2, _⟩ => show ((S128.rowMajor.symm ((y gathers_S1000x128_S128x128.axis').cast hn.symm)) 0).val = ((v14 L k).view.emb y 0).val % 128; rw [hq, e0]; omega
    | ⟨1, _⟩ =>
      refine (Shape.Gathers.idx_of_ne gathers_S1000x128_S128x128 _ y ⟨1, by decide⟩ (by decide)).trans ?_
      exact e1.symm

/-- Off the trip's chunk the write changes nothing. -/
theorem rest_same (L : grid0.Coords) (k : Fin k0_t1_loop.trips) (d : Dev nD) (f : Buf (Elt F) (oLoc d)) (pay : S128x128.Idx → Elt F .f32) :
    ∀ i ∈ tileSet (cL L) (sL L) \ (v14 L k).view.set, f i = (v14 L k).view.writes (Elt F) f [⟨Rect.whole S128x128, pay⟩] i := by
  intro i hi
  refine (View.writes_apply_of_forall_ne (v14 L k).view f _ (fun y e => (Finset.mem_sdiff.mp hi).2 (by rw [← e]; exact View.emb_mem_set _ y))).symm

/-- The loop makes exactly 200 trips. -/
theorem trips_eq : k0_t1_loop.trips = 200 := by decide

/-- After the last trip all of the worker's rows hold the lookup's values. -/
theorem done_all (d : Dev nD) (c : Fin 2) (s : Fin 16) (f : Buf (Elt F) (oLoc d)) (hf : Done m d c s k0_t1_loop.trips f) :
    ∀ i ∈ tileSet c s, f i = OutF m d i := by
  intro i hi
  have := mem_tileSet.mp hi
  exact hf i this.1 (by rw [trips_eq]; omega)

end Cert.Proof.KI

end
-- ==== Proof.KIBody.lean ====
/-
  One worker's task.

  Worker w = 2 s + c (vector subcore s of SparseCore c) first copies row w of the regrouped index words into its own
  memory: 200 rows of 128 words.  Then, for k = 0 ... 199, it fetches the 128 table rows named by row k of those words
  into a 128 x 128 buffer of its own and copies that buffer to rows 25600 w + 128 k ... 25600 w + 128 k + 127 of the
  flat result.  Entry (j, l) of the fetched buffer is entry l of the table row named by word (w, k, j); row
  r = 25600 w + 128 k + j of the flat result has r / 25600 = w, r % 25600 / 128 = k and r % 128 = j, so what is written
  there is the lookup's value.  The loop's invariant: the worker's rows below 25600 w + 128 k hold the lookup's
  values; the rest of its rows are still its own to write.
-/
import proofs.«202864_g79886391705942_cont_9to1_m_381_1_alg».proof.Proof.KIStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

-- the kernel's memrefs, spelt as the body table passes them
local notation "iW" => (Memref.whole Cert.KernelIdeal.main_v0_scv : Memref Cert.KernelIdeal.sig Kind.scVector Space.hbm Cert.KernelIdeal.S32x200x128 EltTy.i32)
local notation "tW" => (Memref.whole Cert.KernelIdeal.main_arg1_scv : Memref Cert.KernelIdeal.sig Kind.scVector Space.hbm Cert.KernelIdeal.S1000x128 EltTy.f32)
local notation "oW" => (Memref.whole Cert.KernelIdeal.main_v1_scv : Memref Cert.KernelIdeal.sig Kind.scVector Space.hbm Cert.KernelIdeal.S819200x128 EltTy.f32)
local notation "sI" => (Memref.whole Cert.KernelIdeal.cc0_scratch0 : Memref Cert.KernelIdeal.sig Kind.scVector Space.vmem Cert.KernelIdeal.S200x128 EltTy.i32)
local notation "sX" => (Memref.whole Cert.KernelIdeal.cc0_scratch1 : Memref Cert.KernelIdeal.sig Kind.scVector Space.vmem Cert.KernelIdeal.S128x128 EltTy.f32)

variable [FloatOps F]

section Tile

variable (d : Dev nD) (L : grid0.Coords)

abbrev thr : Thread nD τ := V d (cV L) (jV L)

abbrev gCell : GSem nD τ sig := (thr d L, .dma cc0_scratch2.sem)
abbrev aCell : GSem nD τ sig := (thr d L, .dma cc0_scoped0.sem)
abbrev bCell : GSem nD τ sig := (thr d L, .dma cc0_scoped1.sem)

omit [FloatOps F] in
theorem ownSems0_V :
    (ownSems0 (thr d L) : sProp 𝕄)
      = iprop(semVal (gCell d L) 0 ∗ semVal (aCell d L) 0 ∗ semVal (bCell d L) 0
          ∗ bigSep ((((ownCells (thr d L)).erase (gCell d L)).erase (aCell d L)).erase (bCell d L)) fun g => semVal g 0) := by
  unfold SparseCore.Cfg.ownSems0
  rw [SparseCore.bigSep_erase' ((mem_ownCells (g := gCell d L)).mpr ⟨rfl, by
      show (SemLoc.dma cc0_scratch2.sem : SemLoc sig).isScoped .scVector = true; decide⟩),
    SparseCore.bigSep_erase' (Finset.mem_erase.mpr ⟨by simp [gCell, aCell]; decide, (mem_ownCells (g := aCell d L)).mpr ⟨rfl, by
      show (SemLoc.dma cc0_scoped0.sem : SemLoc sig).isScoped .scVector = true; decide⟩⟩),
    SparseCore.bigSep_erase' (Finset.mem_erase.mpr ⟨by simp [aCell, bCell]; decide, Finset.mem_erase.mpr ⟨by simp [gCell, bCell]; decide,
      (mem_ownCells (g := bCell d L)).mpr ⟨rfl, by show (SemLoc.dma cc0_scoped1.sem : SemLoc sig).isScoped .scVector = true; decide⟩⟩⟩)]

omit [FloatOps F] in
/-- The two buffers of the worker's own memory are among its own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The arrays as a worker's memrefs address them are the device's arrays. -/
theorem pts_i (q : PosShare TreeShare) (f : Buf (Elt F) (i3Loc d)) :
    ((iW).view.loc (thr d L) ↦{q} f : sProp 𝕄) = i3Loc d ↦{q} f := by
  simp only [Memref.view_whole, View.set_whole]
omit [FloatOps F] in
theorem pts_t (q : PosShare TreeShare) (f : Buf (Elt F) (tblLoc d)) :
    ((tW).view.loc (thr d L) ↦{q} f : sProp 𝕄) = tblLoc d ↦{q} f := by
  simp only [Memref.view_whole, View.set_whole]
omit [FloatOps F] in
theorem pts_sI (f : Buf (Elt F) ((thr d L).loc cc0_scratch0)) :
    ((sI).view.loc (thr d L) ↦{fullShare} f : sProp 𝕄) = (thr d L).loc cc0_scratch0 ↦{fullShare} f := rfl
omit [FloatOps F] in
theorem pts_sX (f : Buf (Elt F) ((thr d L).loc cc0_scratch1)) :
    ((sX).view.loc (thr d L) ↦{fullShare} f : sProp 𝕄) = (thr d L).loc cc0_scratch1 ↦{fullShare} f := rfl

/-- The loop's invariant at trip `k`. -/
def inv (O : CellTallies nD τ sig (HIx 1)) (W : Waits sig (HIx 1)) (A : Buf (Elt F) ((thr d L).loc cc0_scratch0)) (k : Nat) (_ : PUnit) : sProp 𝕄 :=
  iprop(Transfers.MayWaits (thr d L) (none : HIx 1) O
    ∗ ((iW).view.loc (thr d L) ↦{qT (cL L) (sL L)} I3 m d)
    ∗ ((tW).view.loc (thr d L) ↦{qT (cL L) (sL L)} m (tblLoc d))
    ∗ ((sI).view.loc (thr d L) ↦{fullShare} A)
    ∗ (∃ fx, (sX).view.loc (thr d L) ↦{fullShare} fx)
    ∗ semVal (gCell d L) 0 ∗ semVal (bCell d L) 0
    ∗ (∃ f, ⌜Done m d (cL L) (sL L) k f⌝ ∗ oLoc d ↦[tileSet (cL L) (sL L)]{fullShare} f)
    ∗ ∃ W', ⌜∀ p ∈ W', p ∈ W ∨ p.2 = none⌝ ∗ owes (thr d L) O W')

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d (cL L) (sL L) (m (oLoc d))
        ∗ scopedBufs (thr d L) ∗ scopedSems0 (thr d L) ∗ owes (thr d L) O W)
      ⊢ wp frame (wpE (defs₀ (F := F)) 𝒱₀ (thr d L) none) Set.univ
          (cc0__gather_body L iW (Memref.isWhole_whole _) tW (Memref.isWhole_whole _) oW (Memref.isWhole_whole _)
            sI (Memref.isWhole_whole _) sX (Memref.isWhole_whole _) cc0_scratch2 cc0_scoped0 cc0_scoped1)
          fun _ => iprop(tileRes m d (cL L) (sL L) (OutF m d) ∗ scopedBufs (thr d L) ∗ scopedSems0 (thr d L)
            ∗ ∃ W', ⌜∀ p ∈ W', p ∈ W ∨ p.2 = none⌝ ∗ owes (thr d L) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold tileRes
  iintro ⟨#Hlv, -, ⟨Hi, Ht, Ho⟩, ⟨⟨%fs, Hs⟩, ⟨%fx, Hsx⟩, Hbufs⟩, ⟨HsemG, HsemA, HsemB, Hsems⟩, HO⟩
  ihave Hmw := ((K (F := F)).mayWaits_none (thr := thr d L) hO) $$ Hlv
  ihave Hi' := (Entails.of_eq (pts_i (F := F) d L _ _).symm) $$ Hi
  ihave Ht' := (Entails.of_eq (pts_t (F := F) d L _ _).symm) $$ Ht
  ihave Hs' := (Entails.of_eq (pts_sI (F := F) d L _).symm) $$ Hs
  ihave Hsx' := (Entails.of_eq (pts_sX (F := F) d L _).symm) $$ Hsx
  sl_exec
  have hA := copy_apply m d L fs (tile_body.sl.dma0 m d L) rfl
  generalize View.write (Elt F) (sI).view fs (tile_body.sl.dma0 m d L) Finset.univ = A at hA
  sl_for (inv m d L O W A) $$ [Hmw Hi' Ht' Hs' Hsx' HsemG HsemB Ho HO]
  case region =>
    intro k _
    unfold inv
    iintro ⟨Hmw, Hi, Ht, Hs, ⟨%fx', Hsx⟩, HsemG, HsemB, ⟨%f, %hf, Ho⟩, %W', %hW', HO⟩
    -- the trip's list names table rows; the trip's chunk is carved out of the worker's rows
    have hin := list_in_range m hpre d L A hA k
    ihave Ho2 := (pointsTo_split_subset (q := fullShare) (f := f) (chunk_sub L k)).1 $$ Ho
    icases Ho2 with ⟨Hoc, Hor⟩
    ihave Hoc' := (Entails.of_eq (show (oLoc d ↦[(v14 L k).view.set]{fullShare} f : sProp 𝕄) = ((v14 L k).view.loc (thr d L) ↦[(v14 L k).view.set]{fullShare} f) from rfl)) $$ Hoc
    sl_exec
    sl_step
    isplitl [Hmw]; · iexact Hmw
    isplitl [Hi]; · iexact Hi
    isplitl [Ht]; · iexact Ht
    isplitl [Hs]; · iexact Hs
    isplitl [Hsx]; · iexists _; iexact Hsx
    isplitl [HsemG]; · iexact HsemG
    isplitl [HsemB]; · iexact HsemB
    isplitl [Hoc' Hor]
    · iexists ((v14 L k).view.writes (Elt F) f [⟨Rect.whole S128x128, tile_body.sl.dma0_1 m d L A k fx' hin⟩])
      isplitr
      · ipureintro
        exact done_step m hpre d L A hA k fx' f hf rfl hin (tile_body.sl.gather0 m d A k hin) rfl (tile_body.sl.dma0_1 m d L A k fx' hin) rfl
      · -- the rest of the worker's rows, untouched, is at the written contents too; chunk and rest join
        ihave Hor' := (Entails.of_eq (pointsTo_congr (q := fullShare) (rest_same L k d f (tile_body.sl.dma0_1 m d L A k fx' hin)))) $$ Hor
        ihave Hoc2 := (Entails.of_eq (show ((v14 L k).view.loc (thr d L) ↦[(v14 L k).view.set]{fullShare}
            (v14 L k).view.writes (Elt F) f [⟨Rect.whole S128x128, tile_body.sl.dma0_1 m d L A k fx' hin⟩] : sProp 𝕄)
            = (oLoc d ↦[(v14 L k).view.set]{fullShare} (v14 L k).view.writes (Elt F) f [⟨Rect.whole S128x128, tile_body.sl.dma0_1 m d L A k fx' hin⟩]) from rfl)) $$ Hoc'
        iapply (pointsTo_split_subset (q := fullShare) (chunk_sub L k)).2
        isplitl [Hoc2]; · iexact Hoc2
        iexact Hor'
    iexists _; isplitr
    swap; · iexact HO
    ipureintro; intro p hp
    rcases Finset.mem_insert.mp hp with hp | hp
    · exact .inr (hp ▸ rfl)
    rcases Finset.mem_insert.mp hp with hp | hp
    · exact .inr (hp ▸ rfl)
    exact hW' p hp
  · unfold inv
    isplitl [Hmw]; · iexact Hmw
    isplitl [Hi']; · iexact Hi'
    isplitl [Ht']; · iexact Ht'
    isplitl [Hs']; · iexact Hs'
    isplitl [Hsx']; · iexists _; iexact Hsx'
    isplitl [HsemG]; · iexact HsemG
    isplitl [HsemB]; · iexact HsemB
    isplitl [Ho]
    · iexists (m (oLoc d)); isplitr
      · ipureintro; intro x h1 h2; exact absurd h2 (by omega)
      · iexact Ho
    iexists _; isplitr
    swap; · iexact HO
    ipureintro; intro p hp
    rcases Finset.mem_insert.mp hp with hp | hp
    · exact .inr (hp ▸ rfl)
    exact .inl hp
  iintro %_ HI
  unfold inv
  icases HI with ⟨-, Hi, Ht, Hs, ⟨%fx2, Hsx⟩, HsemG, HsemB, ⟨%f, %hf, Ho⟩, %W', %hW', HO⟩
  sl_exec
  sl_step
  isplitl [Hi Ht Ho]
  · isplitl [Hi]; · iapply (Entails.of_eq (pts_i (F := F) d L _ _)); iexact Hi
    isplitl [Ht]; · iapply (Entails.of_eq (pts_t (F := F) d L _ _)); iexact Ht
    iapply (Entails.of_eq (pointsTo_congr (q := fullShare) (done_all m d (cL L) (sL L) f hf))); iexact Ho
  isplitl [Hs Hsx Hbufs]
  · isplitl [Hs]; · iexists _; iexact Hs
    isplitl [Hsx]; · iexists _; iexact Hsx
    iexact Hbufs
  isplitl [HsemG HsemA HsemB Hsems]
  · isplitl [HsemG]; · iexact HsemG
    isplitl [HsemA]; · iexact HsemA
    isplitl [HsemB]; · iexact HsemB
    iexact Hsems
  iexists W'; isplitr
  · ipureintro; exact hW'
  · iexact HO

end Tile

end Cert.Proof.KI

end
-- ==== Proof.KIObl.lean ====
/-
  The launch theorem's obligation for the one kernel: every vector subcore of the call's grid, as worker w = 2 s + c,
  runs the task proved for a worker at symbolic coordinates.
-/
import proofs.«202864_g79886391705942_cont_9to1_m_381_1_alg».proof.Proof.KIBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iW" => (Memref.whole Cert.KernelIdeal.main_v0_scv : Memref Cert.KernelIdeal.sig Kind.scVector Space.hbm Cert.KernelIdeal.S32x200x128 EltTy.i32)
local notation "tW" => (Memref.whole Cert.KernelIdeal.main_arg1_scv : Memref Cert.KernelIdeal.sig Kind.scVector Space.hbm Cert.KernelIdeal.S1000x128 EltTy.f32)
local notation "oW" => (Memref.whole Cert.KernelIdeal.main_v1_scv : Memref Cert.KernelIdeal.sig Kind.scVector Space.hbm Cert.KernelIdeal.S819200x128 EltTy.f32)
local notation "sI" => (Memref.whole Cert.KernelIdeal.cc0_scratch0 : Memref Cert.KernelIdeal.sig Kind.scVector Space.vmem Cert.KernelIdeal.S200x128 EltTy.i32)
local notation "sX" => (Memref.whole Cert.KernelIdeal.cc0_scratch1 : Memref Cert.KernelIdeal.sig Kind.scVector Space.vmem Cert.KernelIdeal.S128x128 EltTy.f32)

variable [FloatOps F]

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          iW (Memref.isWhole_whole _) tW (Memref.isWhole_whole _) oW (Memref.isWhole_whole _)
          sI (Memref.isWhole_whole _) sX (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KI

end
-- ==== Proof.KIValue.lean ====
/-
  The flat result regrouped is the lookup.

  The kernel leaves the lookup over the index words regrouped 32 x 200 x 128 in a flat array of 819200 rows; the
  program's result is that array regrouped 4096 x 200 x 128.  Entry (b, n, l) of the result is entry l of flat row
  r = 200 b + n, which is the table row named by the word at (r / 25600, r % 25600 / 128, r % 128) of the regrouped
  words; that word has row-major position r among the words, the position of (b, n) in the 4096 x 200 array.  So
  the result is the lookup over the index words as given.  Regrouping also keeps every word below the table's size.
-/
import proofs.«202864_g79886391705942_cont_9to1_m_381_1_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (m : (ℓ : Loc nD τ sig) → Buf (Elt F) ℓ)

/-- A regrouped word is the given word at the same row-major position. -/
theorem I3_apply (d : Dev nD) (b : Fin 4096) (n : Fin 200) (x : S32x200x128.Idx)
    (hx : ((x 0).val * 200 + (x 1).val) * 128 + (x 2).val = b.val * 200 + n.val) :
    I3 m d x = m (idsLoc d) (ix2 b n) := by
  unfold I3
  refine shapeCast_apply (s := S4096x200) (t := S32x200x128) _ _ x (ix2 b n) ?_
  rw [Shape.rowMajor_val_two, Shape.rowMajor_val_three]
  show b.val * 200 + n.val = ((x 0).val * 200 + (x 1).val) * 128 + (x 2).val
  omega

/-- Regrouping only re-indexes: every regrouped word is one of the given words. -/
theorem I3_lt (hr : ∀ (d : Dev nD) (i : S4096x200.Idx), (m (idsLoc d) i).toNat < 1000) (d : Dev nD) (x : S32x200x128.Idx) :
    (I3 m d x).toNat < 1000 := by
  unfold I3 shapeCast
  exact hr _ _

variable [FloatOps F]

/-- Flat row 200 b + n is below the 819200 rows. -/
theorem flatRow_lt (b : Fin 4096) (n : Fin 200) : 200 * b.val + n.val < 819200 := by
  have := b.isLt; have := n.isLt; omega

/-- The flat result regrouped 4096 x 200 x 128 is the lookup over the index words as given. -/
theorem result_eq (d : Dev nD) :
    shapeCast S4096x200x128 (OutF m d) Gen.shapeCasts_S819200x128_S4096x200x128 = Cert.Spec.G (m (idsLoc d)) (m (tblLoc d)) := by
  funext j
  obtain ⟨b, n, l, rfl⟩ : ∃ (b : Fin 4096) (n : Fin 200) (l : Fin 128), j = ix3 b n l := ⟨j 0, j 1, j 2, eq_ix3 j⟩
  have hb := b.isLt; have hn := n.isLt; have hl := l.isLt
  -- entry (b, n, l) of the regrouped array is entry l of flat row 200 b + n
  refine (shapeCast_apply (s := S819200x128) (t := S4096x200x128) (OutF m d) _ (ix3 b n l) (ix2 (⟨200 * b.val + n.val, flatRow_lt b n⟩ : Fin 819200) l) ?_).trans ?_
  · rw [Shape.rowMajor_val_two, Shape.rowMajor_val_three]
    show (200 * b.val + n.val) * 128 + l.val = (b.val * 200 + n.val) * 128 + l.val
    omega
  -- the word that names that row is the word at (b, n)
  unfold OutF Cert.Spec.Gflat Cert.Spec.G
  show m (tblLoc d) (ix2 (Cert.Spec.rowOf (I3 m d _)) l) = m (tblLoc d) (ix2 (Cert.Spec.rowOf (m (idsLoc d) (ix2 b n))) l)
  rw [I3_apply m d b n]
  show ((200 * b.val + n.val) / 25600 * 200 + (200 * b.val + n.val) % 25600 / 128) * 128 + (200 * b.val + n.val) % 128 = b.val * 200 + n.val
  omega

end Cert.Proof.KI

end
-- ==== Proof.KILaunch.lean ====
/-
  The launch side of the kernel's run.

  The program is three lines on the TensorCore: the index words (4096 x 200) are regrouped 32 x 200 x 128; the two
  SparseCores are called, their 32 vector subcores each writing its own 25600 rows of the flat result; the flat
  result (819200 x 128) is regrouped 4096 x 200 x 128.

  For the call the TensorCore's whole arrays are cut into what the workers are handed: the regrouped words and the
  table, which every worker only reads, into 2 x 16 read shares (the full share cut in two, each half in sixteen);
  the flat result into the workers' 32 row blocks, which are pairwise disjoint and cover it (a row r lies in the
  block of worker r / 25600).  After the call the shares are joined again, and the 32 blocks, each holding the
  lookup's values, are the flat result holding the lookup.  The second regrouping then leaves the lookup over the
  index words as given.

  The launch theorem turns this, with one worker's task, into the run of all 35 threads: every execution ends with
  the result holding the lookup and the two arguments unchanged.
-/
import proofs.«202864_g79886391705942_cont_9to1_m_381_1_alg».proof.Proof.KICommon
import proofs.«202864_g79886391705942_cont_9to1_m_381_1_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
open Idealize.ShloMosaic.StableHlo (held wp_hlo_within)

local notation "𝕄" => MT nD τ sig (HIx 1) (Elt F) ℕ UU ℕ

variable (m : (ℓ : Loc nD τ sig) → Buf (Elt F) ℓ) (ρ : Dev nD → PrngReg)

/-! ## The workers' row blocks cut the flat result -/

omit m in
/-- Two workers' numbers agree only if the workers do. -/
theorem wid_inj {c c' : Fin 2} {s s' : Fin 16} (h : wid c s = wid c' s') : c = c' ∧ s = s' := by
  unfold wid at h
  have := c.isLt; have := c'.isLt
  exact ⟨Fin.ext (by omega), Fin.ext (by omega)⟩

omit m in
/-- Different workers' row blocks are disjoint. -/
theorem tiles_disjoint : ∀ p ∈ (Finset.univ : Finset (Fin 2 × Fin 16)), ∀ p' ∈ (Finset.univ : Finset (Fin 2 × Fin 16)), p ≠ p' →
    Disjoint (tileSet p.1 p.2) (tileSet p'.1 p'.2) := by
  intro p _ p' _ hne
  refine Finset.disjoint_left.mpr fun x hx hx' => hne ?_
  have h1 := mem_tileSet.mp hx
  have h2 := mem_tileSet.mp hx'
  have hw : wid p.1 p.2 = wid p'.1 p'.2 := by omega
  obtain ⟨e1, e2⟩ := wid_inj hw
  exact Prod.ext e1 e2

omit m in
/-- The row blocks cover the flat result: row r is in the block of worker r / 25600. -/
theorem tiles_cover : (Finset.univ : Finset (Fin 2 × Fin 16)).biUnion (fun p => tileSet p.1 p.2) = Finset.univ := by
  refine Finset.eq_univ_iff_forall.mpr fun x => Finset.mem_biUnion.mpr ?_
  have hx := idx2_lt0 x
  refine ⟨(⟨(x 0).val / 25600 % 2, Nat.mod_lt _ (by decide)⟩, ⟨(x 0).val / 51200, by omega⟩), Finset.mem_univ _, mem_tileSet.mpr ?_⟩
  show 25600 * wid _ _ ≤ _ ∧ _ < 25600 * wid _ _ + 25600
  unfold wid
  show 25600 * (2 * ((x 0).val / 51200) + (x 0).val / 25600 % 2) ≤ (x 0).val ∧ (x 0).val < 25600 * (2 * ((x 0).val / 51200) + (x 0).val / 25600 % 2) + 25600
  omega

omit m in
/-- The flat result whole is the 2 x 16 row blocks. -/
theorem oPts_tiles (d : Dev nD) (f : Buf (Elt F) (oLoc d)) :
    (oLoc d ↦{fullShare} f : sProp 𝕄) = bigSep Finset.univ fun c : Fin 2 => bigSep Finset.univ fun s : Fin 16 => oLoc d ↦[tileSet c s]{fullShare} f := by
  rw [← bigSep_univ_prod (fun p : Fin 2 × Fin 16 => (oLoc d ↦[tileSet p.1 p.2]{fullShare} f : sProp 𝕄)),
    ← pointsTo_biUnion Finset.univ (ℓ := oLoc d) (fun p : Fin 2 × Fin 16 => tileSet p.1 p.2) tiles_disjoint, tiles_cover]
  try rfl

omit m in
/-- An array held whole is held at the 2 x 16 read shares at once. -/
theorem shares_split (ℓ : Loc nD τ sig) (f : Buf (Elt F) ℓ) :
    (ℓ ↦{fullShare} f : sProp 𝕄) = bigSep Finset.univ fun c : Fin 2 => bigSep Finset.univ fun s : Fin 16 => ℓ ↦{qT c s} f := by
  rw [pointsTo_piecesOf Finset.univ f (o := 2) (by decide) fullShare]
  exact bigSep_congr fun c _ => pointsTo_piecesOf Finset.univ f (o := 16) (by decide) (qC c)

variable [FloatOps F]

/-- What the 32 workers are handed together is the three arrays whole. -/
theorem tiles_eq (d : Dev nD) (f : Buf (Elt F) (oLoc d)) :
    (bigSep Finset.univ fun c : Fin 2 => bigSep Finset.univ fun s : Fin 16 => tileRes m d c s f)
      = iprop((i3Loc d ↦{fullShare} I3 m d) ∗ (tblLoc d ↦{fullShare} m (tblLoc d)) ∗ oLoc d ↦{fullShare} f) := by
  unfold tileRes
  rw [shares_split (i3Loc d), shares_split (tblLoc d), oPts_tiles d f]
  simp only [bigSep_sep']

/-! ## The call's payloads, as equations -/

theorem P_st_eq (d : Dev nD) (c : Fin ((K (F := F)).nCore 0)) :
    (P m).st 0 d c = bigSep Finset.univ fun i : Fin ((K (F := F)).nSub 0) => tileRes m d (Fin.cast nCore_zero c) (Fin.cast nSub_zero i) (m (oLoc d)) := rfl
theorem P_dn_eq (d : Dev nD) (c : Fin ((K (F := F)).nCore 0)) :
    (P m).dn 0 d c = bigSep Finset.univ fun i : Fin ((K (F := F)).nSub 0) => tileRes m d (Fin.cast nCore_zero c) (Fin.cast nSub_zero i) (OutF m d) := rfl
theorem P_go_eq (d : Dev nD) (c : Fin ((K (F := F)).nCore 0)) (i : Fin ((K (F := F)).nSub 0)) :
    (P m).go 0 d c i = tileRes m d (Fin.cast nCore_zero c) (Fin.cast nSub_zero i) (m (oLoc d)) := rfl
theorem P_td_eq (d : Dev nD) (c : Fin ((K (F := F)).nCore 0)) (i : Fin ((K (F := F)).nSub 0)) :
    (P m).td 0 d c i = tileRes m d (Fin.cast nCore_zero c) (Fin.cast nSub_zero i) (OutF m d) := rfl

/-- A SparseCore's operands are its sixteen workers' and its results theirs: nothing to cut. -/
theorem vecSplit : (K (F := F)).VecSplit' (P m) 0 := by
  intro d c
  rw [P_st_eq, P_dn_eq]
  simp only [P_go_eq, P_td_eq]
  iintro H; imodintro
  isplitl [H]; · iexact H
  iintro H; iexact H

/-- Over the call's grid, with the grid's sizes read as 2 and 16. -/
theorem grid_eq (Φ : Fin 2 → Fin 16 → sProp 𝕄) :
    (bigSep Finset.univ fun c : Fin ((K (F := F)).nCore 0) => bigSep Finset.univ fun i : Fin ((K (F := F)).nSub 0) => Φ (Fin.cast nCore_zero c) (Fin.cast nSub_zero i))
      = bigSep Finset.univ fun c : Fin 2 => bigSep Finset.univ fun s : Fin 16 => Φ c s :=
  bigSep_congr fun _ _ => bigSep_congr fun _ _ => rfl

theorem st0_eq (d : Dev nD) :
    (bigSep Finset.univ fun c : Fin ((K (F := F)).nCore 0) => (P m).st 0 d c)
      = iprop((i3Loc d ↦{fullShare} I3 m d) ∗ (tblLoc d ↦{fullShare} m (tblLoc d)) ∗ oLoc d ↦{fullShare} m (oLoc d)) := by
  simp only [P_st_eq]
  rw [grid_eq (F := F) (fun c s => tileRes m d c s (m (oLoc d))), tiles_eq]
theorem dn0_eq (d : Dev nD) :
    (bigSep Finset.univ fun c : Fin ((K (F := F)).nCore 0) => (P m).dn 0 d c)
      = iprop((i3Loc d ↦{fullShare} I3 m d) ∗ (tblLoc d ↦{fullShare} m (tblLoc d)) ∗ oLoc d ↦{fullShare} OutF m d) := by
  simp only [P_dn_eq]
  rw [grid_eq (F := F) (fun c s => tileRes m d c s (OutF m d)), tiles_eq]

/-! ## The launch element: the handshakes' rounds; the counters are not used -/

def u₀ : UU := (initOf (K (F := F)).hsCells (K (F := F)).hsToks, 1)

omit [FloatOps F] m in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev refIds : DevRef τ sig := Proc.devRef .tc (main_arg0 : Ref sig .tc)
abbrev refI3 : DevRef τ sig := Proc.devRef .tc (main_v0 : Ref sig .tc)
abbrev refO : DevRef τ sig := Proc.devRef .tc (main_v1 : Ref sig .tc)
abbrev refR : DevRef τ sig := Proc.devRef .tc (main_v2 : Ref sig .tc)
/-- The two regroupings. -/
abbrev regroup1 : HloOp τ sig (Elt F) := StableHlo.reshape main_arg0 main_v0 rfl Gen.shapeCasts_S4096x200_S32x200x128
abbrev regroup2 : HloOp τ sig (Elt F) := StableHlo.reshape main_v1 main_v2 rfl Gen.shapeCasts_S819200x128_S4096x200x128

abbrev bufs1 : Finset (DevRef τ sig) := {refIds, refI3}
abbrev bufs2 : Finset (DevRef τ sig) := {refO, refR}

omit [FloatOps F] m in
/-- The TensorCore's arrays, all unscoped: the two arguments, the regrouped words, the flat result, the result. -/
theorem unscopedBufs_eq (d : Dev nD) (W : (b : Ref sig .tc) → Buf (Elt F) ((d.tc : Thread nD τ).loc b)) :
    (unscopedBufs d W : sProp 𝕄) = iprop((idsLoc d ↦{fullShare} W main_arg0) ∗ (tblLoc d ↦{fullShare} W main_arg1) ∗ (i3Loc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]

omit [FloatOps F] m in
theorem held_bufs1 (d : Dev nD) (W : Valuation τ sig (Elt F)) :
    (held (T d) bufs1 W : sProp 𝕄) = iprop((idsLoc d ↦{fullShare} W refIds) ∗ i3Loc d ↦{fullShare} W refI3) := by
  unfold held bufs1
  rw [SparseCore.bigSep_insert' (by decide), bigSep_singleton]
omit [FloatOps F] m in
theorem held_bufs2 (d : Dev nD) (W : Valuation τ sig (Elt F)) :
    (held (T d) bufs2 W : sProp 𝕄) = iprop((oLoc d ↦{fullShare} W refO) ∗ rLoc d ↦{fullShare} W refR) := by
  unfold held bufs2
  rw [SparseCore.bigSep_insert' (by decide), bigSep_singleton]

/-- The launch valuation; after the call, the flat result at the lookup. -/
def valLaunch (d : Dev nD) : Valuation τ sig (Elt F) := fun b => m (d, b)
def valCall (d : Dev nD) : Valuation τ sig (Elt F) := Function.update (valLaunch m d) refO (OutF m d)

theorem valCall_o (d : Dev nD) : valCall m d refO = OutF m d := Function.update_self _ _ _
theorem valCall_r (d : Dev nD) : valCall m d refR = m (rLoc d) := Function.update_of_ne (show refR ≠ refO by decide) _ _

/-- The first regrouping leaves the index words as they were and the regrouped words at `I3`. -/
theorem regroup1_ids (d : Dev nD) : (regroup1 (F := F)).result (valLaunch m d) refIds = m (idsLoc d) :=
  (regroup1 (F := F)).result_of_not_mem (valLaunch m d) (b := refIds) (show refIds ∉ ({refI3} : Finset (DevRef τ sig)) by decide)
theorem regroup1_i3 (d : Dev nD) : (regroup1 (F := F)).result (valLaunch m d) refI3 = I3 m d :=
  StableHlo.reshape_result main_arg0 main_v0 rfl Gen.shapeCasts_S4096x200_S32x200x128 _ _ (valLaunch m d)
/-- The second regrouping leaves the flat result as it was and the result at the flat result regrouped. -/
theorem regroup2_o (d : Dev nD) : (regroup2 (F := F)).result (valCall m d) refO = OutF m d :=
  ((regroup2 (F := F)).result_of_not_mem (valCall m d) (b := refO) (show refO ∉ ({refR} : Finset (DevRef τ sig)) by decide)).trans (valCall_o m d)
theorem regroup2_r (d : Dev nD) : (regroup2 (F := F)).result (valCall m d) refR = shapeCast S4096x200x128 (OutF m d) Gen.shapeCasts_S819200x128_S4096x200x128 := by
  rw [← valCall_o m d]
  exact StableHlo.reshape_result main_v1 main_v2 rfl Gen.shapeCasts_S819200x128_S4096x200x128 _ _ (valCall m d)

theorem regroup1_bufs : (regroup1 (F := F)).bufs ⊆ bufs1 := show ({refIds, refI3} : Finset (DevRef τ sig)) ⊆ bufs1 by decide
theorem regroup2_bufs : (regroup2 (F := F)).bufs ⊆ bufs2 := show ({refO, refR} : Finset (DevRef τ sig)) ⊆ bufs2 by decide

/-- What @main leaves the claim: the two arguments at their launch contents, the result at the flat lookup regrouped. -/
abbrev FIN (d : Dev nD) : sProp 𝕄 :=
  iprop((idsLoc d ↦{fullShare} m (idsLoc d)) ∗ (tblLoc d ↦{fullShare} m (tblLoc d))
    ∗ rLoc d ↦{fullShare} (shapeCast S4096x200x128 (OutF m d) Gen.shapeCasts_S819200x128_S4096x200x128))

/-- @main on device `d`'s TensorCore: the first regrouping, the call (the arrays cut into the workers' parts and joined
    again), the second regrouping. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hids, Htbl, Hv0, Hv1, Hv2⟩, -, -⟩, -⟩
  -- the first regrouping, over the index words and the regrouped words
  iapply (wp_hlo_within 𝒱 (SparseCore.T d) none Set.univ (op := regroup1) (S := bufs1) regroup1_bufs (V := valLaunch m d)) $$ [Hb Hids Hv0]
  · isplitl [Hb]; · iexact Hb
    rw [held_bufs1]
    isplitl [Hids]; · iexact Hids
    iexact Hv0
  iintro ⟨Hb, Hheld⟩
  ihave Hh := (Entails.of_eq (held_bufs1 (F := F) d _)) $$ Hheld
  rw [regroup1_ids, regroup1_i3]
  icases Hh with ⟨Hids, Hv0⟩
  rw [wp_ret]; imodintro
  -- the call: the three arrays cut into the 32 workers' parts, and joined again holding the lookup
  iapply ((K (F := F)).wp_run (D (F := F)) 𝒱 (EH := EH) (P := P m) κ d 0) $$ [Hst Hv0 Htbl Hv1 Hb Hids Hv2]
  isplitr; · iexact Hctx
  isplitl [Hst]; · iexact Hst
  isplitl [Hv0 Htbl Hv1]
  · rw [st0_eq]
    isplitl [Hv0]; · iexact Hv0
    isplitl [Htbl]; · iexact Htbl
    iexact Hv1
  iintro ⟨Hst, Hdn⟩
  ihave Hdn' := (Entails.of_eq (dn0_eq m d)) $$ Hdn
  icases Hdn' with ⟨-, Htbl, Hv1⟩
  -- the second regrouping, over the flat result and the result
  iapply (wp_hlo_within 𝒱 (SparseCore.T d) none Set.univ (op := regroup2) (S := bufs2) regroup2_bufs (V := valCall m d)) $$ [Hb Hv1 Hv2]
  · isplitl [Hb]; · iexact Hb
    rw [held_bufs2, valCall_o, valCall_r]
    isplitl [Hv1]; · iexact Hv1
    iexact Hv2
  iintro ⟨Hb, Hheld⟩
  ihave Hh := (Entails.of_eq (held_bufs2 (F := F) d _)) $$ Hheld
  rw [regroup2_o, regroup2_r]
  icases Hh with ⟨-, Hv2⟩
  rw [wp_ret]; imodintro; imodintro
  isplitl [Hst]; · iexact Hst
  isplitl [Hids]; · iexact Hids
  isplitl [Htbl]; · iexact Htbl
  iexact Hv2

/-! ## Reading the claim off the final memory -/

def fq (d : Dev nD) (s' : Phys nD τ sig (Elt F)) : Prop :=
  s'.mem.mem (rLoc d) = shapeCast S4096x200x128 (OutF m d) Gen.shapeCasts_S819200x128_S4096x200x128
    ∧ s'.mem.mem (idsLoc d) = m (idsLoc d) ∧ s'.mem.mem (tblLoc d) = m (tblLoc d)

theorem hfin (d : Dev nD) (s' : Phys nD τ sig (Elt F)) : iprop(FIN m d ∗ SI s') ⊢ (⌜fq m d s'⌝ : sProp 𝕄) := by
  iintro ⟨⟨Hi, Ht, Hr⟩, HSI⟩
  ihave H := (persistent_entails_right (SI_pointsTo_agree (st := s') (ℓ := idsLoc d) (I := Finset.univ) (q := fullShare) (f := m (idsLoc d)))) $$ [HSI Hi]
  · isplitl [HSI] <;> iassumption
  icases H with ⟨%h1, HSI, -⟩
  ihave H := (persistent_entails_right (SI_pointsTo_agree (st := s') (ℓ := tblLoc d) (I := Finset.univ) (q := fullShare) (f := m (tblLoc d)))) $$ [HSI Ht]
  · isplitl [HSI] <;> iassumption
  icases H with ⟨%h2, HSI, -⟩
  ihave H := (SI_pointsTo_agree (st := s') (ℓ := rLoc d) (I := Finset.univ) (q := fullShare)
    (f := shapeCast S4096x200x128 (OutF m d) Gen.shapeCasts_S819200x128_S4096x200x128)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device ends with the result holding the lookup over the index words and the table, and both unchanged. -/
def QC : PUnit × MemSt nD τ sig (Elt F) → Prop := fun r =>
  ∀ c : Dev nD, r.2.mem (rLoc c) = Cert.Spec.G (m (idsLoc c)) (m (tblLoc c)) ∧ r.2.mem (idsLoc c) = m (idsLoc c) ∧ r.2.mem (tblLoc c) = m (tblLoc c)

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).1.trans (result_eq m c), (h c).2⟩)

end Cert.Proof.KI

end
-- ==== Proof.KIRun.lean ====
/-
  The idealized kernel's run: when every index word names a table row, every execution of the 35 threads ends with
  the result holding the lookup of the table at the index words, the two arguments unchanged.
-/
import proofs.«202864_g79886391705942_cont_9to1_m_381_1_alg».proof.Proof.KIObl
import proofs.«202864_g79886391705942_cont_9to1_m_381_1_alg».proof.Proof.KILaunch

noncomputable section

namespace Cert.Proof.KI

open Cert.KernelIdeal Cert.KernelIdeal.Gen
open Idealize.ShloMosaic Idealize.SL.Sem

variable {F : FTy → Type} [FloatOps F]

theorem run [∀ e, Nonempty (Elt F e)] (m : (ℓ : Loc nD τ sig) → Buf (Elt F) ℓ) (ρ : Dev nD → PrngReg)
    (hr : ∀ (d : Dev nD) (i : S4096x200.Idx), (m (idsLoc d) i).toNat < 1000) :
    θ_run (Cert.KernelIdeal.defs (F := F)) (Cert.KernelIdeal.threads (F := F)) ⟨m, fun _ => 0, ρ⟩ (QC m) :=
  run_main m ρ (tileObl m facts (I3_lt m hr))

end Cert.Proof.KI

end
-- ==== Proof.KBCommon.lean ====
/-
  The kernel's program as the launch theorem sees it, and what the call hands each vector subcore.

  The kernel is a lookup run by 32 vector subcores at once.  Subcore s of SparseCore c is worker w = 2 s + c.  It
  copies row w of the index words (grouped 32 x 200 x 128) into its own memory and then, 200 times, fetches the 128
  table rows named by row k of those words and writes them to rows 25600 w + 128 k ... + 127 of the flat result
  (819200 rows of 128 entries).  So worker w alone writes rows 25600 w ... 25600 w + 25599 of the result, and reads
  the index words and the table without changing them.

  Accordingly each worker is handed a read share of the whole index array and of the whole table, and full ownership
  of its own 25600 rows of the result; it hands the shares back, and its rows holding the lookup's values.
-/
import proofs.«202864_g79886391705942_cont_9to1_m_381_1_alg».proof.Defs
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Pipeline.Value
import Idealize.ShloMosaic.Lib.Tactic
import proofs.«202864_g79886391705942_cont_9to1_m_381_1_alg».proof.Proof.Gen.Kernel
import proofs.«202864_g79886391705942_cont_9to1_m_381_1_alg».proof.Proof.Gen.Kernel.Skeleton
import proofs.«202864_g79886391705942_cont_9to1_m_381_1_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The index words (4096 x 200), the table, the words regrouped 32 x 200 x 128, the flat result, the result. -/
abbrev idsLoc (d : Dev nD) : Loc nD τ sig := (SparseCore.T d).loc main_arg0
abbrev tblLoc (d : Dev nD) : Loc nD τ sig := (SparseCore.T d).loc main_arg1
abbrev i3Loc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The index words regrouped: the same words in row-major order at the shape 32 x 200 x 128. -/
def I3 (d : Dev nD) : Buf (Elt F) (i3Loc d) :=
  shapeCast S32x200x128 (m (idsLoc d)) Gen.shapeCasts_S4096x200_S32x200x128

/-- What the flat result holds once every worker is done: the lookup over the regrouped words. -/
def OutF (d : Dev nD) : Buf (Elt F) (oLoc d) := Cert.Spec.Gflat (I3 m d) (m (tblLoc d))

/-! ## A worker's rows of the flat result -/

/-- Worker number of subcore `s` of SparseCore `c`. -/
def wid (c : Fin 2) (s : Fin 16) : ℕ := 2 * s.val + c.val

theorem wid_lt (c : Fin 2) (s : Fin 16) : wid c s < 32 := by unfold wid; omega

theorem tile_inb (c : Fin 2) (s : Fin 16) : ∀ a, (![25600 * wid c s, 0] : Fin 2 → ℕ) a + (![25600, 128] : Fin 2 → ℕ) a ≤ S819200x128.size a := by
  have := wid_lt c s
  intro a; match a with
  | ⟨0, _⟩ => show 25600 * wid c s + 25600 ≤ 819200; omega
  | ⟨1, _⟩ => show 0 + 128 ≤ 128; omega

/-- Rows 25600 w ... 25600 w + 25599 of the flat result, all 128 entries of each. -/
abbrev tileRect (c : Fin 2) (s : Fin 16) : Rect S819200x128 := Rect.unit (s := S819200x128) ![25600 * wid c s, 0] ![25600, 128] (tile_inb c s)
abbrev tileSet (c : Fin 2) (s : Fin 16) : Finset S819200x128.Idx := (tileRect c s).set

theorem mem_tileSet {c : Fin 2} {s : Fin 16} {x : S819200x128.Idx} :
    x ∈ tileSet c s ↔ 25600 * wid c s ≤ (x 0).val ∧ (x 0).val < 25600 * wid c s + 25600 := by
  unfold tileSet tileRect
  rw [Rect.mem_set_unit]
  constructor
  · intro h; exact h 0
  · intro h a; match a with
    | ⟨0, _⟩ => exact h
    | ⟨1, _⟩ => exact ⟨Nat.zero_le _, by have := idx2_lt1 x; show (x 1).val < 0 + 128; omega⟩

/-- The flat result agrees with the lookup on the worker's rows below its chunk `k`. -/
def Done (d : Dev nD) (c : Fin 2) (s : Fin 16) (k : ℕ) (f : Buf (Elt F) (oLoc d)) : Prop :=
  ∀ x : S819200x128.Idx, 25600 * wid c s ≤ (x 0).val → (x 0).val < 25600 * wid c s + 128 * k → f x = OutF m d x

/-! ## What the handshakes carry -/

variable [FloatOps F]

abbrev qC (c : Fin 2) : PosShare TreeShare := pieceOf fullShare 2 (by decide) c
abbrev qT (c : Fin 2) (s : Fin 16) : PosShare TreeShare := pieceOf (qC c) 16 (by decide) s

/-- What worker (c, s) holds at its start (`f` the launch contents of the flat result) and at its end (`f` the
    lookup): a share of the regrouped words and of the table, and its rows of the flat result at `f`. -/
def tileRes (d : Dev nD) (c : Fin 2) (s : Fin 16) (f : Buf (Elt F) (oLoc d)) : sProp 𝕄 :=
  iprop((i3Loc d ↦{qT c s} I3 m d) ∗ (tblLoc d ↦{qT c s} m (tblLoc d)) ∗ oLoc d ↦[tileSet c s]{fullShare} f)

instance tileRes_storable (d : Dev nD) (c : Fin 2) (s : Fin 16) (f : Buf (Elt F) (oLoc d)) : BI.Storable (upEmb : UEmb _ 𝕄) (tileRes m d c s f) := by
  unfold tileRes; infer_instance

/-- The one call: a SparseCore is handed what its sixteen workers need, each worker its own. -/
def P : (K (F := F)).Pay (nD := nD) (Val := Elt F) (Name := ℕ) (U := UU) where
  st := fun q d c => match q with
    | 0 => bigSep Finset.univ fun i : Fin ((K (F := F)).nSub 0) => tileRes m d (Fin.cast nCore_zero c) (Fin.cast nSub_zero i) (m (oLoc d))
  dn := fun q d c => match q with
    | 0 => bigSep Finset.univ fun i : Fin ((K (F := F)).nSub 0) => tileRes m d (Fin.cast nCore_zero c) (Fin.cast nSub_zero i) (OutF m d)
  go := fun q d c i => match q with | 0 => tileRes m d (Fin.cast nCore_zero c) (Fin.cast nSub_zero i) (m (oLoc d))
  td := fun q d c i => match q with | 0 => tileRes m d (Fin.cast nCore_zero c) (Fin.cast nSub_zero i) (OutF m d)
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Proof.KB

end
-- ==== Proof.KBChunk.lean ====
/-
  Where a worker's slices sit, and what its copies carry.

  Worker w = 2 s + c addresses three pieces of the arrays: row w of the regrouped index words (200 x 128 words); row k
  of its own copy of those words (128 words: the trip's list of table rows); and rows 25600 w + 128 k ... + 127 of the
  flat result (the trip's chunk).  This module says which indices of the whole arrays those pieces are, that the
  chunks lie inside the worker's own rows, that every listed word names a table row, and that after a trip the chunk
  holds the lookup's values while the rows below it are untouched.
-/
import proofs.«202864_g79886391705942_cont_9to1_m_381_1_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.Sem
open Idealize.ShloMosaic.ValueIdx

variable {F : FTy → Type}

variable (m : (ℓ : Loc nD τ sig) → Buf (Elt F) ℓ)

local notation "iW" => (Memref.whole Cert.Kernel.main_v0_scv : Memref Cert.Kernel.sig Kind.scVector Space.hbm Cert.Kernel.S32x200x128 EltTy.i32)
local notation "tW" => (Memref.whole Cert.Kernel.main_arg1_scv : Memref Cert.Kernel.sig Kind.scVector Space.hbm Cert.Kernel.S1000x128 EltTy.f32)
local notation "oW" => (Memref.whole Cert.Kernel.main_v1_scv : Memref Cert.Kernel.sig Kind.scVector Space.hbm Cert.Kernel.S819200x128 EltTy.f32)
local notation "sI" => (Memref.whole Cert.Kernel.cc0_scratch0 : Memref Cert.Kernel.sig Kind.scVector Space.vmem Cert.Kernel.S200x128 EltTy.i32)
local notation "sX" => (Memref.whole Cert.Kernel.cc0_scratch1 : Memref Cert.Kernel.sig Kind.scVector Space.vmem Cert.Kernel.S128x128 EltTy.f32)

/-- What the proof asks of the launch memory: every regrouped index word names a table row. -/
def PreOK : Prop := ∀ (d : Dev nD) (x : S32x200x128.Idx), (I3 m d x).toNat < 1000

theorem bound_zero : grid0.bound 0 = 2 := rfl
theorem bound_one : grid0.bound 1 = 16 := rfl
abbrev cV (L : grid0.Coords) : Fin τ.nSC := (L 0).castLE hcore0
abbrev jV (L : grid0.Coords) : Fin τ.nSub := (L 1).castLE hsub0
abbrev cL (L : grid0.Coords) : Fin 2 := Fin.cast bound_zero (L 0)
abbrev sL (L : grid0.Coords) : Fin 16 := Fin.cast bound_one (L 1)

theorem wid_L (L : grid0.Coords) : wid (cL L) (sL L) = 2 * (L 1).val + (L 0).val := rfl

/-- Row w of the regrouped words, as the worker slices it. -/
abbrev v8 (L : grid0.Coords) : Memref sig .scVector .hbm S200x128 .i32 :=
  ((iW).slice (Rect.unit (s := S32x200x128) (k0_off1 L) S1x200x128.size (k0_off1_inb L)) (fun _ => rfl)).squeeze S200x128 squeezes_S1x200x128_S200x128
/-- Row k of the worker's copy of the words: the list of the trip's 128 table rows. -/
abbrev v5 (k : Fin k0_t1_loop.trips) : Memref sig .scVector .vmem S128 .i32 :=
  ((sI).slice (Rect.unit (s := S200x128) (k0_off2 k) S1x128.size (k0_off2_inb k)) (fun _ => rfl)).squeeze S128 squeezes_S1x128_S128
/-- Rows 25600 w + 128 k ... + 127 of the flat result, as the worker slices them. -/
abbrev v14 (L : grid0.Coords) (k : Fin k0_t1_loop.trips) : Memref sig .scVector .hbm S128x128 .f32 :=
  (oW).slice (Rect.unit (s := S819200x128) (k0_off3 L k) S128x128.size (k0_off3_inb L k)) (fun _ => rfl)

theorem trips_le : k0_t1_loop.trips ≤ 200 := k0_t1_abs.2.1

/-! ## Dropping a leading axis of extent one keeps the other coordinates -/

theorem squeeze_row (y : S200x128.Idx) :
    Shape.reshapeEquiv (s := S1x200x128) (s' := S200x128) squeezes_S1x200x128_S200x128.numel_eq y
      = ix3 (n0 := 1) (n1 := 200) (n2 := 128) ⟨0, Nat.one_pos⟩ ⟨(y 0).val, idx2_lt0 y⟩ ⟨(y 1).val, idx2_lt1 y⟩ := by
  apply Shape.reshapeEquiv_eq_of_rowMajor
  rw [Shape.rowMajor_val_three, Shape.rowMajor_val_two]
  show (0 * 200 + (y 0).val) * 128 + (y 1).val = (y 0).val * 128 + (y 1).val
  omega

theorem squeeze_list (x : S128.Idx) :
    Shape.reshapeEquiv (s := S1x128) (s' := S128) squeezes_S1x128_S128.numel_eq x
      = ix2 (n0 := 1) (n1 := 128) ⟨0, Nat.one_pos⟩ ⟨(x 0).val, (x 0).isLt⟩ := by
  apply Shape.reshapeEquiv_eq_of_rowMajor
  rw [Shape.rowMajor_val_two, Shape.rowMajor_val_one]
  show 0 * 128 + (x 0).val = (x 0).val
  omega

/-! ## Where the pieces sit -/

/-- Word (j, l) of the worker's row is word (w, j, l) of the regrouped words. -/
theorem v8_emb (L : grid0.Coords) (y : S200x128.Idx) :
    (v8 L).view.emb y = ix3 (n0 := 32) (n1 := 200) (n2 := 128) ⟨wid (cL L) (sL L), wid_lt _ _⟩ ⟨(y 0).val, idx2_lt0 y⟩ ⟨(y 1).val, idx2_lt1 y⟩ := by
  funext a; apply Fin.ext
  show k0_off1 L a + 1 * ((Shape.reshapeEquiv (s := S1x200x128) (s' := S200x128) squeezes_S1x200x128_S200x128.numel_eq y) a).val = _
  rw [squeeze_row, k0_off1_eq]
  match a with
  | ⟨0, _⟩ => show 2 * (L 1).val + (L 0).val + 1 * 0 = 2 * (L 1).val + (L 0).val; omega
  | ⟨1, _⟩ => show 0 + 1 * (y 0).val = (y 0).val; omega
  | ⟨2, _⟩ => show 0 + 1 * (y 1).val = (y 1).val; omega

/-- Entry j of the trip's list is word (k, j) of the worker's copy. -/
theorem v5_emb (k : Fin k0_t1_loop.trips) (x : S128.Idx) :
    (v5 k).view.emb x = ix2 (n0 := 200) (n1 := 128) ⟨k.val, lt_of_lt_of_le k.isLt trips_le⟩ ⟨(x 0).val, (x 0).isLt⟩ := by
  funext a; apply Fin.ext
  show k0_off2 k a + 1 * ((Shape.reshapeEquiv (s := S1x128) (s' := S128) squeezes_S1x128_S128.numel_eq x) a).val = _
  rw [squeeze_list, k0_off2_eq]
  match a with
  | ⟨0, _⟩ => show k.val + 1 * 0 = k.val; omega
  | ⟨1, _⟩ => show 0 + 1 * (x 0).val = (x 0).val; omega

/-- Entry (j, l) of the trip's chunk is entry (25600 w + 128 k + j, l) of the flat result. -/
theorem v14_emb0 (L : grid0.Coords) (k : Fin k0_t1_loop.trips) (y : S128x128.Idx) :
    (((v14 L k).view.emb y) 0).val = 25600 * wid (cL L) (sL L) + 128 * k.val + (y 0).val := by
  show k0_off3 L k 0 + 1 * (y 0).val = _
  rw [k0_off3_eq, wid_L]
  show 51200 * (L 1).val + 25600 * (L 0).val + 128 * k.val + 1 * (y 0).val = _
  omega
theorem v14_emb1 (L : grid0.Coords) (k : Fin k0_t1_loop.trips) (y : S128x128.Idx) :
    (((v14 L k).view.emb y) 1).val = (y 1).val := by
  show k0_off3 L k 1 + 1 * (y 1).val = _
  rw [k0_off3_eq]
  show 0 + 1 * (y 1).val = _
  omega

/-- An index of the flat result is in the trip's chunk exactly when its row is one of the chunk's 128. -/
theorem mem_chunk (L : grid0.Coords) (k : Fin k0_t1_loop.trips) (x : S819200x128.Idx) :
    x ∈ (v14 L k).view.set ↔ 25600 * wid (cL L) (sL L) + 128 * k.val ≤ (x 0).val ∧ (x 0).val < 25600 * wid (cL L) (sL L) + 128 * k.val + 128 := by
  rw [show (v14 L k).view.set = (Rect.unit (s := S819200x128) (k0_off3 L k) S128x128.size (k0_off3_inb L k)).set from View.set_slice_whole _ _,
    Rect.mem_set_unit, k0_off3_eq, wid_L]
  constructor
  · intro h
    have h0 := h 0
    change 51200 * (L 1).val + 25600 * (L 0).val + 128 * k.val ≤ (x 0).val ∧ (x 0).val < 51200 * (L 1).val + 25600 * (L 0).val + 128 * k.val + 128 at h0
    omega
  · intro h a
    match a with
    | ⟨0, _⟩ =>
      show 51200 * (L 1).val + 25600 * (L 0).val + 128 * k.val ≤ (x 0).val ∧ (x 0).val < 51200 * (L 1).val + 25600 * (L 0).val + 128 * k.val + 128
      omega
    | ⟨1, _⟩ => exact ⟨Nat.zero_le _, by have := idx2_lt1 x; show (x 1).val < 0 + 128; omega⟩

/-- The trip's chunk lies inside the worker's own rows. -/
theorem chunk_sub (L : grid0.Coords) (k : Fin k0_t1_loop.trips) : (v14 L k).view.set ⊆ tileSet (cL L) (sL L) := by
  intro x hx
  have hk : k.val < 200 := lt_of_lt_of_le k.isLt trips_le
  have := (mem_chunk L k x).mp hx
  exact mem_tileSet.mpr (by omega)

/-! ## What the worker's copy of the words holds, and that the listed words name table rows -/

/-- After the first copy the worker's buffer holds row w of the regrouped words. -/
theorem copy_apply (d : Dev nD) (L : grid0.Coords) (fs : Buf (Elt F) ((V d (cV L) (jV L)).loc cc0_scratch0)) (pay : S200x128.Idx → Elt F .i32)
    (hpay : pay = ReadAs.same.apply ((v8 L).view.read (Elt F) (I3 m d))) (y : S200x128.Idx) :
    View.write (Elt F) (sI).view fs pay Finset.univ y
      = I3 m d (ix3 (n0 := 32) (n1 := 200) (n2 := 128) ⟨wid (cL L) (sL L), wid_lt _ _⟩ ⟨(y 0).val, idx2_lt0 y⟩ ⟨(y 1).val, idx2_lt1 y⟩) := by
  subst hpay
  rw [show View.write (Elt F) (sI).view fs _ Finset.univ = _ from View.write_whole_univ _ _ _]
  show (v8 L).view.read (Elt F) (I3 m d) y = _
  rw [View.read_apply, v8_emb]
  exact cast_eq _ _

/-- Every word of the trip's list names a table row. -/
theorem list_in_range (hpre : PreOK m) (d : Dev nD) (L : grid0.Coords) (A : Buf (Elt F) ((V d (cV L) (jV L)).loc cc0_scratch0))
    (hA : ∀ y : S200x128.Idx, A y = I3 m d (ix3 (n0 := 32) (n1 := 200) (n2 := 128) ⟨wid (cL L) (sL L), wid_lt _ _⟩ ⟨(y 0).val, idx2_lt0 y⟩ ⟨(y 1).val, idx2_lt1 y⟩))
    (k : Fin k0_t1_loop.trips) :
    ∀ x, ((v5 k).view.read (Elt F) A x).toNat < S1000x128.size gathers_S1000x128_S128x128.axis := by
  intro x
  have e : (v5 k).view.read (Elt F) A x = A ((v5 k).view.emb x) := (View.read_apply _ _).trans (cast_eq _ _)
  rw [e, hA]
  exact hpre d _

end Cert.Proof.KB

end
-- ==== Proof.KBStep.lean ====
/-
  One trip of a worker's loop, as a statement about values.

  Before trip k the worker's rows below 25600 w + 128 k hold the lookup's values.  The trip writes its 128 x 128 buffer
  to rows 25600 w + 128 k ... + 127, and the buffer's entry (j, l) is entry l of the table row named by word (k, j) of
  the worker's copy of the index words, which is word (w, k, j) of the regrouped words.  Row r = 25600 w + 128 k + j
  has r / 25600 = w, r % 25600 / 128 = k and r % 128 = j, so the entry written at (r, l) is the lookup's value there;
  rows below the chunk are not touched.  Hence after the trip the rows below 25600 w + 128 (k + 1) hold the lookup's
  values.
-/
import proofs.«202864_g79886391705942_cont_9to1_m_381_1_alg».proof.Proof.KBChunk

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.Sem
open Idealize.ShloMosaic.ValueIdx

variable {F : FTy → Type}

variable (m : (ℓ : Loc nD τ sig) → Buf (Elt F) ℓ)

local notation "tW" => (Memref.whole Cert.Kernel.main_arg1_scv : Memref Cert.Kernel.sig Kind.scVector Space.hbm Cert.Kernel.S1000x128 EltTy.f32)
local notation "sX" => (Memref.whole Cert.Kernel.cc0_scratch1 : Memref Cert.Kernel.sig Kind.scVector Space.vmem Cert.Kernel.S128x128 EltTy.f32)

/-- The table, as the worker addresses it for the fetch: all of it. -/
abbrev v6 : Memref sig .scVector .hbm S1000x128 .f32 :=
  (tW).slice (Rect.unit (s := S1000x128) ![0, 0] S1000x128.size inb_S1000x128_S1000x128_0_0) (fun _ => rfl)

theorem v6_emb (z : S1000x128.Idx) : (v6).view.emb z = z := by
  funext a; apply Fin.ext
  match a with
  | ⟨0, _⟩ => show 0 + 1 * (z 0).val = (z 0).val; omega
  | ⟨1, _⟩ => show 0 + 1 * (z 1).val = (z 1).val; omega

/-- The first coordinate of the list entry at row-major position j is j. -/
theorem list_pos (j : Fin 128) (h : S128.numel = 128) : ((S128.rowMajor.symm (j.cast h.symm)) 0).val = j.val := by
  have e := Shape.rowMajor_val_one (S128.rowMajor.symm (j.cast h.symm))
  rw [Equiv.apply_symm_apply] at e
  exact e.symm

theorem done_step (hpre : PreOK m) (d : Dev nD) (L : grid0.Coords) (A : Buf (Elt F) ((V d (cV L) (jV L)).loc cc0_scratch0))
    (hA : ∀ y : S200x128.Idx, A y = I3 m d (ix3 (n0 := 32) (n1 := 200) (n2 := 128) ⟨wid (cL L) (sL L), wid_lt _ _⟩ ⟨(y 0).val, idx2_lt0 y⟩ ⟨(y 1).val, idx2_lt1 y⟩))
    (k : Fin k0_t1_loop.trips) (fx' : Buf (Elt F) ((V d (cV L) (jV L)).loc cc0_scratch1)) (f : Buf (Elt F) (oLoc d))
    (hf : Done m d (cL L) (sL L) k.val f)
    (hn : S128.numel = S128x128.size gathers_S1000x128_S128x128.axis')
    (hin : ∀ x, ((v5 k).view.read (Elt F) A x).toNat < S1000x128.size gathers_S1000x128_S128x128.axis)
    (g : S128x128.Idx → Elt F .f32)
    (hg : g = SparseCore.gatherPayload gathers_S1000x128_S128x128 ((v6).view.read (Elt F) (m (tblLoc d))) (SparseCore.rows ((v5 k).view.read (Elt F) A) hn hin))
    (pay : S128x128.Idx → Elt F .f32)
    (hpay : pay = ReadAs.same.apply ((sX).view.read (Elt F) ((sX).view.writes (Elt F) fx' [⟨Rect.whole cc0_scratch1.ty.shape, g⟩]))) :
    Done m d (cL L) (sL L) (k.val + 1) ((v14 L k).view.writes (Elt F) f [⟨Rect.whole S128x128, pay⟩]) := by
  have hk : k.val < 200 := lt_of_lt_of_le k.isLt trips_le
  intro x hlo hhi
  by_cases hx : (x 0).val < 25600 * wid (cL L) (sL L) + 128 * k.val
  · -- below the chunk: untouched
    rw [View.writes_apply_of_forall_ne]
    · exact hf x hlo hx
    · intro y e
      have h0 := v14_emb0 L k y
      rw [e] at h0
      omega
  · -- inside the chunk
    have hy0 : (x 0).val - (25600 * wid (cL L) (sL L) + 128 * k.val) < 128 := by omega
    obtain ⟨y, rfl⟩ : ∃ y : S128x128.Idx, x = (v14 L k).view.emb y := by
      refine ⟨ix2 (n0 := 128) (n1 := 128) ⟨(x 0).val - (25600 * wid (cL L) (sL L) + 128 * k.val), hy0⟩ ⟨(x 1).val, idx2_lt1 x⟩, ?_⟩
      funext a; apply Fin.ext
      match a with
      | ⟨0, _⟩ =>
        refine ((v14_emb0 L k _).trans ?_).symm
        show 25600 * wid (cL L) (sL L) + 128 * k.val + ((x 0).val - (25600 * wid (cL L) (sL L) + 128 * k.val)) = (x 0).val
        omega
      | ⟨1, _⟩ =>
        show (x 1).val = (((v14 L k).view.emb (ix2 (n0 := 128) (n1 := 128) ⟨(x 0).val - (25600 * wid (cL L) (sL L) + 128 * k.val), hy0⟩ ⟨(x 1).val, idx2_lt1 x⟩)) 1).val
        rw [v14_emb1]
    have hy0' : (y 0).val < 128 := idx2_lt0 y
    have e0 := v14_emb0 L k y
    have e1 := v14_emb1 L k y
    -- what the chunk's write leaves at the entry
    have hw : (v14 L k).view.writes (Elt F) f [⟨Rect.whole S128x128, pay⟩] ((v14 L k).view.emb y) = pay y := by
      have := View.read_writes_cons_emb (v := (v14 L k).view) (f := f) (Val := Elt F) (Rect.whole S128x128) pay [] y
      rw [Rect.emb_whole_apply, View.read_apply] at this
      exact (cast_eq _ _).symm.trans this
    rw [hw]
    subst hpay hg
    -- the buffer's entry is the gathered one
    have hp : ReadAs.same.apply ((sX).view.read (Elt F) ((sX).view.writes (Elt F) fx'
        [⟨Rect.whole cc0_scratch1.ty.shape, SparseCore.gatherPayload gathers_S1000x128_S128x128 ((v6).view.read (Elt F) (m (tblLoc d)))
          (SparseCore.rows ((v5 k).view.read (Elt F) A) hn hin)⟩])) y
        = m (tblLoc d) ((v6).view.emb (gathers_S1000x128_S128x128.idx (SparseCore.rows ((v5 k).view.read (Elt F) A) hn hin) y)) := by
      show ((sX).view.writes (Elt F) fx' [⟨Rect.whole cc0_scratch1.ty.shape, _⟩]) y = _
      have := View.read_writes_cons_emb (v := (sX).view) (f := fx') (Val := Elt F) (Rect.whole cc0_scratch1.ty.shape)
        (SparseCore.gatherPayload gathers_S1000x128_S128x128 ((v6).view.read (Elt F) (m (tblLoc d))) (SparseCore.rows ((v5 k).view.read (Elt F) A) hn hin)) [] y
      rw [Rect.emb_whole_apply] at this
      refine this.trans ?_
      show (v6).view.read (Elt F) (m (tblLoc d)) _ = _
      rw [View.read_apply]; exact cast_eq _ _
    rw [hp, v6_emb]
    unfold OutF Cert.Spec.Gflat
    refine congrArg (m (tblLoc d)) (funext fun b => Fin.ext ?_)
    match b with
    | ⟨0, _⟩ =>
      have ea := congrArg Fin.val (Shape.Gathers.idx_axis gathers_S1000x128_S128x128 (SparseCore.rows ((v5 k).view.read (Elt F) A) hn hin) y)
      refine ea.trans ?_
      show ((v5 k).view.read (Elt F) A (S128.rowMajor.symm ((y gathers_S1000x128_S128x128.axis').cast hn.symm))).toNat = (Cert.Spec.rowOf _).val
      have er : (v5 k).view.read (Elt F) A (S128.rowMajor.symm ((y gathers_S1000x128_S128x128.axis').cast hn.symm))
          = A ((v5 k).view.emb (S128.rowMajor.symm ((y gathers_S1000x128_S128x128.axis').cast hn.symm))) := (View.read_apply _ _).trans (cast_eq _ _)
      rw [er, v5_emb, hA]
      have hq : ((S128.rowMajor.symm ((y gathers_S1000x128_S128x128.axis').cast hn.symm)) 0).val = (y 0).val := list_pos (y 0) hn
      rw [Cert.Spec.rowOf_val_of_lt (hpre d _)]
      refine congrArg (fun z => (I3 m d z).toNat) (funext fun a => Fin.ext ?_)
      match a with
      | ⟨0, _⟩ => show wid (cL L) (sL L) = ((v14 L k).view.emb y 0).val / 25600; rw [e0]; omega
      | ⟨1, _⟩ => show k.val = ((v14 L k).view.emb y 0).val % 25600 / 128; rw [e0]; omega
      | ⟨2, _⟩ => show ((S128.rowMajor.symm ((y gathers_S1000x128_S128x128.axis').cast hn.symm)) 0).val = ((v14 L k).view.emb y 0).val % 128; rw [hq, e0]; omega
    | ⟨1, _⟩ =>
      refine (Shape.Gathers.idx_of_ne gathers_S1000x128_S128x128 _ y ⟨1, by decide⟩ (by decide)).trans ?_
      exact e1.symm

/-- Off the trip's chunk the write changes nothing. -/
theorem rest_same (L : grid0.Coords) (k : Fin k0_t1_loop.trips) (d : Dev nD) (f : Buf (Elt F) (oLoc d)) (pay : S128x128.Idx → Elt F .f32) :
    ∀ i ∈ tileSet (cL L) (sL L) \ (v14 L k).view.set, f i = (v14 L k).view.writes (Elt F) f [⟨Rect.whole S128x128, pay⟩] i := by
  intro i hi
  refine (View.writes_apply_of_forall_ne (v14 L k).view f _ (fun y e => (Finset.mem_sdiff.mp hi).2 (by rw [← e]; exact View.emb_mem_set _ y))).symm

/-- The loop makes exactly 200 trips. -/
theorem trips_eq : k0_t1_loop.trips = 200 := by decide

/-- After the last trip all of the worker's rows hold the lookup's values. -/
theorem done_all (d : Dev nD) (c : Fin 2) (s : Fin 16) (f : Buf (Elt F) (oLoc d)) (hf : Done m d c s k0_t1_loop.trips f) :
    ∀ i ∈ tileSet c s, f i = OutF m d i := by
  intro i hi
  have := mem_tileSet.mp hi
  exact hf i this.1 (by rw [trips_eq]; omega)

end Cert.Proof.KB

end
-- ==== Proof.KBBody.lean ====
/-
  One worker's task.

  Worker w = 2 s + c (vector subcore s of SparseCore c) first copies row w of the regrouped index words into its own
  memory: 200 rows of 128 words.  Then, for k = 0 ... 199, it fetches the 128 table rows named by row k of those words
  into a 128 x 128 buffer of its own and copies that buffer to rows 25600 w + 128 k ... 25600 w + 128 k + 127 of the
  flat result.  Entry (j, l) of the fetched buffer is entry l of the table row named by word (w, k, j); row
  r = 25600 w + 128 k + j of the flat result has r / 25600 = w, r % 25600 / 128 = k and r % 128 = j, so what is written
  there is the lookup's value.  The loop's invariant: the worker's rows below 25600 w + 128 k hold the lookup's
  values; the rest of its rows are still its own to write.
-/
import proofs.«202864_g79886391705942_cont_9to1_m_381_1_alg».proof.Proof.KBStep

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

-- the kernel's memrefs, spelt as the body table passes them
local notation "iW" => (Memref.whole Cert.Kernel.main_v0_scv : Memref Cert.Kernel.sig Kind.scVector Space.hbm Cert.Kernel.S32x200x128 EltTy.i32)
local notation "tW" => (Memref.whole Cert.Kernel.main_arg1_scv : Memref Cert.Kernel.sig Kind.scVector Space.hbm Cert.Kernel.S1000x128 EltTy.f32)
local notation "oW" => (Memref.whole Cert.Kernel.main_v1_scv : Memref Cert.Kernel.sig Kind.scVector Space.hbm Cert.Kernel.S819200x128 EltTy.f32)
local notation "sI" => (Memref.whole Cert.Kernel.cc0_scratch0 : Memref Cert.Kernel.sig Kind.scVector Space.vmem Cert.Kernel.S200x128 EltTy.i32)
local notation "sX" => (Memref.whole Cert.Kernel.cc0_scratch1 : Memref Cert.Kernel.sig Kind.scVector Space.vmem Cert.Kernel.S128x128 EltTy.f32)

variable [FloatOps F]

section Tile

variable (d : Dev nD) (L : grid0.Coords)

abbrev thr : Thread nD τ := V d (cV L) (jV L)

abbrev gCell : GSem nD τ sig := (thr d L, .dma cc0_scratch2.sem)
abbrev aCell : GSem nD τ sig := (thr d L, .dma cc0_scoped0.sem)
abbrev bCell : GSem nD τ sig := (thr d L, .dma cc0_scoped1.sem)

omit [FloatOps F] in
theorem ownSems0_V :
    (ownSems0 (thr d L) : sProp 𝕄)
      = iprop(semVal (gCell d L) 0 ∗ semVal (aCell d L) 0 ∗ semVal (bCell d L) 0
          ∗ bigSep ((((ownCells (thr d L)).erase (gCell d L)).erase (aCell d L)).erase (bCell d L)) fun g => semVal g 0) := by
  unfold SparseCore.Cfg.ownSems0
  rw [SparseCore.bigSep_erase' ((mem_ownCells (g := gCell d L)).mpr ⟨rfl, by
      show (SemLoc.dma cc0_scratch2.sem : SemLoc sig).isScoped .scVector = true; decide⟩),
    SparseCore.bigSep_erase' (Finset.mem_erase.mpr ⟨by simp [gCell, aCell]; decide, (mem_ownCells (g := aCell d L)).mpr ⟨rfl, by
      show (SemLoc.dma cc0_scoped0.sem : SemLoc sig).isScoped .scVector = true; decide⟩⟩),
    SparseCore.bigSep_erase' (Finset.mem_erase.mpr ⟨by simp [aCell, bCell]; decide, Finset.mem_erase.mpr ⟨by simp [gCell, bCell]; decide,
      (mem_ownCells (g := bCell d L)).mpr ⟨rfl, by show (SemLoc.dma cc0_scoped1.sem : SemLoc sig).isScoped .scVector = true; decide⟩⟩⟩)]

omit [FloatOps F] in
/-- The two buffers of the worker's own memory are among its own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The arrays as a worker's memrefs address them are the device's arrays. -/
theorem pts_i (q : PosShare TreeShare) (f : Buf (Elt F) (i3Loc d)) :
    ((iW).view.loc (thr d L) ↦{q} f : sProp 𝕄) = i3Loc d ↦{q} f := by
  simp only [Memref.view_whole, View.set_whole]
omit [FloatOps F] in
theorem pts_t (q : PosShare TreeShare) (f : Buf (Elt F) (tblLoc d)) :
    ((tW).view.loc (thr d L) ↦{q} f : sProp 𝕄) = tblLoc d ↦{q} f := by
  simp only [Memref.view_whole, View.set_whole]
omit [FloatOps F] in
theorem pts_sI (f : Buf (Elt F) ((thr d L).loc cc0_scratch0)) :
    ((sI).view.loc (thr d L) ↦{fullShare} f : sProp 𝕄) = (thr d L).loc cc0_scratch0 ↦{fullShare} f := rfl
omit [FloatOps F] in
theorem pts_sX (f : Buf (Elt F) ((thr d L).loc cc0_scratch1)) :
    ((sX).view.loc (thr d L) ↦{fullShare} f : sProp 𝕄) = (thr d L).loc cc0_scratch1 ↦{fullShare} f := rfl

/-- The loop's invariant at trip `k`. -/
def inv (O : CellTallies nD τ sig (HIx 1)) (W : Waits sig (HIx 1)) (A : Buf (Elt F) ((thr d L).loc cc0_scratch0)) (k : Nat) (_ : PUnit) : sProp 𝕄 :=
  iprop(Transfers.MayWaits (thr d L) (none : HIx 1) O
    ∗ ((iW).view.loc (thr d L) ↦{qT (cL L) (sL L)} I3 m d)
    ∗ ((tW).view.loc (thr d L) ↦{qT (cL L) (sL L)} m (tblLoc d))
    ∗ ((sI).view.loc (thr d L) ↦{fullShare} A)
    ∗ (∃ fx, (sX).view.loc (thr d L) ↦{fullShare} fx)
    ∗ semVal (gCell d L) 0 ∗ semVal (bCell d L) 0
    ∗ (∃ f, ⌜Done m d (cL L) (sL L) k f⌝ ∗ oLoc d ↦[tileSet (cL L) (sL L)]{fullShare} f)
    ∗ ∃ W', ⌜∀ p ∈ W', p ∈ W ∨ p.2 = none⌝ ∗ owes (thr d L) O W')

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d (cL L) (sL L) (m (oLoc d))
        ∗ scopedBufs (thr d L) ∗ scopedSems0 (thr d L) ∗ owes (thr d L) O W)
      ⊢ wp frame (wpE (defs₀ (F := F)) 𝒱₀ (thr d L) none) Set.univ
          (cc0__gather_body L iW (Memref.isWhole_whole _) tW (Memref.isWhole_whole _) oW (Memref.isWhole_whole _)
            sI (Memref.isWhole_whole _) sX (Memref.isWhole_whole _) cc0_scratch2 cc0_scoped0 cc0_scoped1)
          fun _ => iprop(tileRes m d (cL L) (sL L) (OutF m d) ∗ scopedBufs (thr d L) ∗ scopedSems0 (thr d L)
            ∗ ∃ W', ⌜∀ p ∈ W', p ∈ W ∨ p.2 = none⌝ ∗ owes (thr d L) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold tileRes
  iintro ⟨#Hlv, -, ⟨Hi, Ht, Ho⟩, ⟨⟨%fs, Hs⟩, ⟨%fx, Hsx⟩, Hbufs⟩, ⟨HsemG, HsemA, HsemB, Hsems⟩, HO⟩
  ihave Hmw := ((K (F := F)).mayWaits_none (thr := thr d L) hO) $$ Hlv
  ihave Hi' := (Entails.of_eq (pts_i (F := F) d L _ _).symm) $$ Hi
  ihave Ht' := (Entails.of_eq (pts_t (F := F) d L _ _).symm) $$ Ht
  ihave Hs' := (Entails.of_eq (pts_sI (F := F) d L _).symm) $$ Hs
  ihave Hsx' := (Entails.of_eq (pts_sX (F := F) d L _).symm) $$ Hsx
  sl_exec
  have hA := copy_apply m d L fs (tile_body.sl.dma0 m d L) rfl
  generalize View.write (Elt F) (sI).view fs (tile_body.sl.dma0 m d L) Finset.univ = A at hA
  sl_for (inv m d L O W A) $$ [Hmw Hi' Ht' Hs' Hsx' HsemG HsemB Ho HO]
  case region =>
    intro k _
    unfold inv
    iintro ⟨Hmw, Hi, Ht, Hs, ⟨%fx', Hsx⟩, HsemG, HsemB, ⟨%f, %hf, Ho⟩, %W', %hW', HO⟩
    -- the trip's list names table rows; the trip's chunk is carved out of the worker's rows
    have hin := list_in_range m hpre d L A hA k
    ihave Ho2 := (pointsTo_split_subset (q := fullShare) (f := f) (chunk_sub L k)).1 $$ Ho
    icases Ho2 with ⟨Hoc, Hor⟩
    ihave Hoc' := (Entails.of_eq (show (oLoc d ↦[(v14 L k).view.set]{fullShare} f : sProp 𝕄) = ((v14 L k).view.loc (thr d L) ↦[(v14 L k).view.set]{fullShare} f) from rfl)) $$ Hoc
    sl_exec
    sl_step
    isplitl [Hmw]; · iexact Hmw
    isplitl [Hi]; · iexact Hi
    isplitl [Ht]; · iexact Ht
    isplitl [Hs]; · iexact Hs
    isplitl [Hsx]; · iexists _; iexact Hsx
    isplitl [HsemG]; · iexact HsemG
    isplitl [HsemB]; · iexact HsemB
    isplitl [Hoc' Hor]
    · iexists ((v14 L k).view.writes (Elt F) f [⟨Rect.whole S128x128, tile_body.sl.dma0_1 m d L A k fx' hin⟩])
      isplitr
      · ipureintro
        exact done_step m hpre d L A hA k fx' f hf rfl hin (tile_body.sl.gather0 m d A k hin) rfl (tile_body.sl.dma0_1 m d L A k fx' hin) rfl
      · -- the rest of the worker's rows, untouched, is at the written contents too; chunk and rest join
        ihave Hor' := (Entails.of_eq (pointsTo_congr (q := fullShare) (rest_same L k d f (tile_body.sl.dma0_1 m d L A k fx' hin)))) $$ Hor
        ihave Hoc2 := (Entails.of_eq (show ((v14 L k).view.loc (thr d L) ↦[(v14 L k).view.set]{fullShare}
            (v14 L k).view.writes (Elt F) f [⟨Rect.whole S128x128, tile_body.sl.dma0_1 m d L A k fx' hin⟩] : sProp 𝕄)
            = (oLoc d ↦[(v14 L k).view.set]{fullShare} (v14 L k).view.writes (Elt F) f [⟨Rect.whole S128x128, tile_body.sl.dma0_1 m d L A k fx' hin⟩]) from rfl)) $$ Hoc'
        iapply (pointsTo_split_subset (q := fullShare) (chunk_sub L k)).2
        isplitl [Hoc2]; · iexact Hoc2
        iexact Hor'
    iexists _; isplitr
    swap; · iexact HO
    ipureintro; intro p hp
    rcases Finset.mem_insert.mp hp with hp | hp
    · exact .inr (hp ▸ rfl)
    rcases Finset.mem_insert.mp hp with hp | hp
    · exact .inr (hp ▸ rfl)
    exact hW' p hp
  · unfold inv
    isplitl [Hmw]; · iexact Hmw
    isplitl [Hi']; · iexact Hi'
    isplitl [Ht']; · iexact Ht'
    isplitl [Hs']; · iexact Hs'
    isplitl [Hsx']; · iexists _; iexact Hsx'
    isplitl [HsemG]; · iexact HsemG
    isplitl [HsemB]; · iexact HsemB
    isplitl [Ho]
    · iexists (m (oLoc d)); isplitr
      · ipureintro; intro x h1 h2; exact absurd h2 (by omega)
      · iexact Ho
    iexists _; isplitr
    swap; · iexact HO
    ipureintro; intro p hp
    rcases Finset.mem_insert.mp hp with hp | hp
    · exact .inr (hp ▸ rfl)
    exact .inl hp
  iintro %_ HI
  unfold inv
  icases HI with ⟨-, Hi, Ht, Hs, ⟨%fx2, Hsx⟩, HsemG, HsemB, ⟨%f, %hf, Ho⟩, %W', %hW', HO⟩
  sl_exec
  sl_step
  isplitl [Hi Ht Ho]
  · isplitl [Hi]; · iapply (Entails.of_eq (pts_i (F := F) d L _ _)); iexact Hi
    isplitl [Ht]; · iapply (Entails.of_eq (pts_t (F := F) d L _ _)); iexact Ht
    iapply (Entails.of_eq (pointsTo_congr (q := fullShare) (done_all m d (cL L) (sL L) f hf))); iexact Ho
  isplitl [Hs Hsx Hbufs]
  · isplitl [Hs]; · iexists _; iexact Hs
    isplitl [Hsx]; · iexists _; iexact Hsx
    iexact Hbufs
  isplitl [HsemG HsemA HsemB Hsems]
  · isplitl [HsemG]; · iexact HsemG
    isplitl [HsemA]; · iexact HsemA
    isplitl [HsemB]; · iexact HsemB
    iexact Hsems
  iexists W'; isplitr
  · ipureintro; exact hW'
  · iexact HO

end Tile

end Cert.Proof.KB

end
-- ==== Proof.KBObl.lean ====
/-
  The launch theorem's obligation for the one kernel: every vector subcore of the call's grid, as worker w = 2 s + c,
  runs the task proved for a worker at symbolic coordinates.
-/
import proofs.«202864_g79886391705942_cont_9to1_m_381_1_alg».proof.Proof.KBBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iW" => (Memref.whole Cert.Kernel.main_v0_scv : Memref Cert.Kernel.sig Kind.scVector Space.hbm Cert.Kernel.S32x200x128 EltTy.i32)
local notation "tW" => (Memref.whole Cert.Kernel.main_arg1_scv : Memref Cert.Kernel.sig Kind.scVector Space.hbm Cert.Kernel.S1000x128 EltTy.f32)
local notation "oW" => (Memref.whole Cert.Kernel.main_v1_scv : Memref Cert.Kernel.sig Kind.scVector Space.hbm Cert.Kernel.S819200x128 EltTy.f32)
local notation "sI" => (Memref.whole Cert.Kernel.cc0_scratch0 : Memref Cert.Kernel.sig Kind.scVector Space.vmem Cert.Kernel.S200x128 EltTy.i32)
local notation "sX" => (Memref.whole Cert.Kernel.cc0_scratch1 : Memref Cert.Kernel.sig Kind.scVector Space.vmem Cert.Kernel.S128x128 EltTy.f32)

variable [FloatOps F]

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          iW (Memref.isWhole_whole _) tW (Memref.isWhole_whole _) oW (Memref.isWhole_whole _)
          sI (Memref.isWhole_whole _) sX (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KB

end
-- ==== Proof.KBValue.lean ====
/-
  The flat result regrouped is the lookup.

  The kernel leaves the lookup over the index words regrouped 32 x 200 x 128 in a flat array of 819200 rows; the
  program's result is that array regrouped 4096 x 200 x 128.  Entry (b, n, l) of the result is entry l of flat row
  r = 200 b + n, which is the table row named by the word at (r / 25600, r % 25600 / 128, r % 128) of the regrouped
  words; that word has row-major position r among the words, the position of (b, n) in the 4096 x 200 array.  So
  the result is the lookup over the index words as given.  Regrouping also keeps every word below the table's size.
-/
import proofs.«202864_g79886391705942_cont_9to1_m_381_1_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (m : (ℓ : Loc nD τ sig) → Buf (Elt F) ℓ)

/-- A regrouped word is the given word at the same row-major position. -/
theorem I3_apply (d : Dev nD) (b : Fin 4096) (n : Fin 200) (x : S32x200x128.Idx)
    (hx : ((x 0).val * 200 + (x 1).val) * 128 + (x 2).val = b.val * 200 + n.val) :
    I3 m d x = m (idsLoc d) (ix2 b n) := by
  unfold I3
  refine shapeCast_apply (s := S4096x200) (t := S32x200x128) _ _ x (ix2 b n) ?_
  rw [Shape.rowMajor_val_two, Shape.rowMajor_val_three]
  show b.val * 200 + n.val = ((x 0).val * 200 + (x 1).val) * 128 + (x 2).val
  omega

/-- Regrouping only re-indexes: every regrouped word is one of the given words. -/
theorem I3_lt (hr : ∀ (d : Dev nD) (i : S4096x200.Idx), (m (idsLoc d) i).toNat < 1000) (d : Dev nD) (x : S32x200x128.Idx) :
    (I3 m d x).toNat < 1000 := by
  unfold I3 shapeCast
  exact hr _ _

variable [FloatOps F]

/-- Flat row 200 b + n is below the 819200 rows. -/
theorem flatRow_lt (b : Fin 4096) (n : Fin 200) : 200 * b.val + n.val < 819200 := by
  have := b.isLt; have := n.isLt; omega

/-- The flat result regrouped 4096 x 200 x 128 is the lookup over the index words as given. -/
theorem result_eq (d : Dev nD) :
    shapeCast S4096x200x128 (OutF m d) Gen.shapeCasts_S819200x128_S4096x200x128 = Cert.Spec.G (m (idsLoc d)) (m (tblLoc d)) := by
  funext j
  obtain ⟨b, n, l, rfl⟩ : ∃ (b : Fin 4096) (n : Fin 200) (l : Fin 128), j = ix3 b n l := ⟨j 0, j 1, j 2, eq_ix3 j⟩
  have hb := b.isLt; have hn := n.isLt; have hl := l.isLt
  -- entry (b, n, l) of the regrouped array is entry l of flat row 200 b + n
  refine (shapeCast_apply (s := S819200x128) (t := S4096x200x128) (OutF m d) _ (ix3 b n l) (ix2 (⟨200 * b.val + n.val, flatRow_lt b n⟩ : Fin 819200) l) ?_).trans ?_
  · rw [Shape.rowMajor_val_two, Shape.rowMajor_val_three]
    show (200 * b.val + n.val) * 128 + l.val = (b.val * 200 + n.val) * 128 + l.val
    omega
  -- the word that names that row is the word at (b, n)
  unfold OutF Cert.Spec.Gflat Cert.Spec.G
  show m (tblLoc d) (ix2 (Cert.Spec.rowOf (I3 m d _)) l) = m (tblLoc d) (ix2 (Cert.Spec.rowOf (m (idsLoc d) (ix2 b n))) l)
  rw [I3_apply m d b n]
  show ((200 * b.val + n.val) / 25600 * 200 + (200 * b.val + n.val) % 25600 / 128) * 128 + (200 * b.val + n.val) % 128 = b.val * 200 + n.val
  omega

end Cert.Proof.KB

end
-- ==== Proof.KBLaunch.lean ====
/-
  The launch side of the kernel's run.

  The program is three lines on the TensorCore: the index words (4096 x 200) are regrouped 32 x 200 x 128; the two
  SparseCores are called, their 32 vector subcores each writing its own 25600 rows of the flat result; the flat
  result (819200 x 128) is regrouped 4096 x 200 x 128.

  For the call the TensorCore's whole arrays are cut into what the workers are handed: the regrouped words and the
  table, which every worker only reads, into 2 x 16 read shares (the full share cut in two, each half in sixteen);
  the flat result into the workers' 32 row blocks, which are pairwise disjoint and cover it (a row r lies in the
  block of worker r / 25600).  After the call the shares are joined again, and the 32 blocks, each holding the
  lookup's values, are the flat result holding the lookup.  The second regrouping then leaves the lookup over the
  index words as given.

  The launch theorem turns this, with one worker's task, into the run of all 35 threads: every execution ends with
  the result holding the lookup and the two arguments unchanged.
-/
import proofs.«202864_g79886391705942_cont_9to1_m_381_1_alg».proof.Proof.KBCommon
import proofs.«202864_g79886391705942_cont_9to1_m_381_1_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
open Idealize.ShloMosaic.StableHlo (held wp_hlo_within)

local notation "𝕄" => MT nD τ sig (HIx 1) (Elt F) ℕ UU ℕ

variable (m : (ℓ : Loc nD τ sig) → Buf (Elt F) ℓ) (ρ : Dev nD → PrngReg)

/-! ## The workers' row blocks cut the flat result -/

omit m in
/-- Two workers' numbers agree only if the workers do. -/
theorem wid_inj {c c' : Fin 2} {s s' : Fin 16} (h : wid c s = wid c' s') : c = c' ∧ s = s' := by
  unfold wid at h
  have := c.isLt; have := c'.isLt
  exact ⟨Fin.ext (by omega), Fin.ext (by omega)⟩

omit m in
/-- Different workers' row blocks are disjoint. -/
theorem tiles_disjoint : ∀ p ∈ (Finset.univ : Finset (Fin 2 × Fin 16)), ∀ p' ∈ (Finset.univ : Finset (Fin 2 × Fin 16)), p ≠ p' →
    Disjoint (tileSet p.1 p.2) (tileSet p'.1 p'.2) := by
  intro p _ p' _ hne
  refine Finset.disjoint_left.mpr fun x hx hx' => hne ?_
  have h1 := mem_tileSet.mp hx
  have h2 := mem_tileSet.mp hx'
  have hw : wid p.1 p.2 = wid p'.1 p'.2 := by omega
  obtain ⟨e1, e2⟩ := wid_inj hw
  exact Prod.ext e1 e2

omit m in
/-- The row blocks cover the flat result: row r is in the block of worker r / 25600. -/
theorem tiles_cover : (Finset.univ : Finset (Fin 2 × Fin 16)).biUnion (fun p => tileSet p.1 p.2) = Finset.univ := by
  refine Finset.eq_univ_iff_forall.mpr fun x => Finset.mem_biUnion.mpr ?_
  have hx := idx2_lt0 x
  refine ⟨(⟨(x 0).val / 25600 % 2, Nat.mod_lt _ (by decide)⟩, ⟨(x 0).val / 51200, by omega⟩), Finset.mem_univ _, mem_tileSet.mpr ?_⟩
  show 25600 * wid _ _ ≤ _ ∧ _ < 25600 * wid _ _ + 25600
  unfold wid
  show 25600 * (2 * ((x 0).val / 51200) + (x 0).val / 25600 % 2) ≤ (x 0).val ∧ (x 0).val < 25600 * (2 * ((x 0).val / 51200) + (x 0).val / 25600 % 2) + 25600
  omega

omit m in
/-- The flat result whole is the 2 x 16 row blocks. -/
theorem oPts_tiles (d : Dev nD) (f : Buf (Elt F) (oLoc d)) :
    (oLoc d ↦{fullShare} f : sProp 𝕄) = bigSep Finset.univ fun c : Fin 2 => bigSep Finset.univ fun s : Fin 16 => oLoc d ↦[tileSet c s]{fullShare} f := by
  rw [← bigSep_univ_prod (fun p : Fin 2 × Fin 16 => (oLoc d ↦[tileSet p.1 p.2]{fullShare} f : sProp 𝕄)),
    ← pointsTo_biUnion Finset.univ (ℓ := oLoc d) (fun p : Fin 2 × Fin 16 => tileSet p.1 p.2) tiles_disjoint, tiles_cover]
  try rfl

omit m in
/-- An array held whole is held at the 2 x 16 read shares at once. -/
theorem shares_split (ℓ : Loc nD τ sig) (f : Buf (Elt F) ℓ) :
    (ℓ ↦{fullShare} f : sProp 𝕄) = bigSep Finset.univ fun c : Fin 2 => bigSep Finset.univ fun s : Fin 16 => ℓ ↦{qT c s} f := by
  rw [pointsTo_piecesOf Finset.univ f (o := 2) (by decide) fullShare]
  exact bigSep_congr fun c _ => pointsTo_piecesOf Finset.univ f (o := 16) (by decide) (qC c)

variable [FloatOps F]

/-- What the 32 workers are handed together is the three arrays whole. -/
theorem tiles_eq (d : Dev nD) (f : Buf (Elt F) (oLoc d)) :
    (bigSep Finset.univ fun c : Fin 2 => bigSep Finset.univ fun s : Fin 16 => tileRes m d c s f)
      = iprop((i3Loc d ↦{fullShare} I3 m d) ∗ (tblLoc d ↦{fullShare} m (tblLoc d)) ∗ oLoc d ↦{fullShare} f) := by
  unfold tileRes
  rw [shares_split (i3Loc d), shares_split (tblLoc d), oPts_tiles d f]
  simp only [bigSep_sep']

/-! ## The call's payloads, as equations -/

theorem P_st_eq (d : Dev nD) (c : Fin ((K (F := F)).nCore 0)) :
    (P m).st 0 d c = bigSep Finset.univ fun i : Fin ((K (F := F)).nSub 0) => tileRes m d (Fin.cast nCore_zero c) (Fin.cast nSub_zero i) (m (oLoc d)) := rfl
theorem P_dn_eq (d : Dev nD) (c : Fin ((K (F := F)).nCore 0)) :
    (P m).dn 0 d c = bigSep Finset.univ fun i : Fin ((K (F := F)).nSub 0) => tileRes m d (Fin.cast nCore_zero c) (Fin.cast nSub_zero i) (OutF m d) := rfl
theorem P_go_eq (d : Dev nD) (c : Fin ((K (F := F)).nCore 0)) (i : Fin ((K (F := F)).nSub 0)) :
    (P m).go 0 d c i = tileRes m d (Fin.cast nCore_zero c) (Fin.cast nSub_zero i) (m (oLoc d)) := rfl
theorem P_td_eq (d : Dev nD) (c : Fin ((K (F := F)).nCore 0)) (i : Fin ((K (F := F)).nSub 0)) :
    (P m).td 0 d c i = tileRes m d (Fin.cast nCore_zero c) (Fin.cast nSub_zero i) (OutF m d) := rfl

/-- A SparseCore's operands are its sixteen workers' and its results theirs: nothing to cut. -/
theorem vecSplit : (K (F := F)).VecSplit' (P m) 0 := by
  intro d c
  rw [P_st_eq, P_dn_eq]
  simp only [P_go_eq, P_td_eq]
  iintro H; imodintro
  isplitl [H]; · iexact H
  iintro H; iexact H

/-- Over the call's grid, with the grid's sizes read as 2 and 16. -/
theorem grid_eq (Φ : Fin 2 → Fin 16 → sProp 𝕄) :
    (bigSep Finset.univ fun c : Fin ((K (F := F)).nCore 0) => bigSep Finset.univ fun i : Fin ((K (F := F)).nSub 0) => Φ (Fin.cast nCore_zero c) (Fin.cast nSub_zero i))
      = bigSep Finset.univ fun c : Fin 2 => bigSep Finset.univ fun s : Fin 16 => Φ c s :=
  bigSep_congr fun _ _ => bigSep_congr fun _ _ => rfl

theorem st0_eq (d : Dev nD) :
    (bigSep Finset.univ fun c : Fin ((K (F := F)).nCore 0) => (P m).st 0 d c)
      = iprop((i3Loc d ↦{fullShare} I3 m d) ∗ (tblLoc d ↦{fullShare} m (tblLoc d)) ∗ oLoc d ↦{fullShare} m (oLoc d)) := by
  simp only [P_st_eq]
  rw [grid_eq (F := F) (fun c s => tileRes m d c s (m (oLoc d))), tiles_eq]
theorem dn0_eq (d : Dev nD) :
    (bigSep Finset.univ fun c : Fin ((K (F := F)).nCore 0) => (P m).dn 0 d c)
      = iprop((i3Loc d ↦{fullShare} I3 m d) ∗ (tblLoc d ↦{fullShare} m (tblLoc d)) ∗ oLoc d ↦{fullShare} OutF m d) := by
  simp only [P_dn_eq]
  rw [grid_eq (F := F) (fun c s => tileRes m d c s (OutF m d)), tiles_eq]

/-! ## The launch element: the handshakes' rounds; the counters are not used -/

def u₀ : UU := (initOf (K (F := F)).hsCells (K (F := F)).hsToks, 1)

omit [FloatOps F] m in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev refIds : DevRef τ sig := Proc.devRef .tc (main_arg0 : Ref sig .tc)
abbrev refI3 : DevRef τ sig := Proc.devRef .tc (main_v0 : Ref sig .tc)
abbrev refO : DevRef τ sig := Proc.devRef .tc (main_v1 : Ref sig .tc)
abbrev refR : DevRef τ sig := Proc.devRef .tc (main_v2 : Ref sig .tc)
/-- The two regroupings. -/
abbrev regroup1 : HloOp τ sig (Elt F) := StableHlo.reshape main_arg0 main_v0 rfl Gen.shapeCasts_S4096x200_S32x200x128
abbrev regroup2 : HloOp τ sig (Elt F) := StableHlo.reshape main_v1 main_v2 rfl Gen.shapeCasts_S819200x128_S4096x200x128

abbrev bufs1 : Finset (DevRef τ sig) := {refIds, refI3}
abbrev bufs2 : Finset (DevRef τ sig) := {refO, refR}

omit [FloatOps F] m in
/-- The TensorCore's arrays, all unscoped: the two arguments, the regrouped words, the flat result, the result. -/
theorem unscopedBufs_eq (d : Dev nD) (W : (b : Ref sig .tc) → Buf (Elt F) ((d.tc : Thread nD τ).loc b)) :
    (unscopedBufs d W : sProp 𝕄) = iprop((idsLoc d ↦{fullShare} W main_arg0) ∗ (tblLoc d ↦{fullShare} W main_arg1) ∗ (i3Loc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]

omit [FloatOps F] m in
theorem held_bufs1 (d : Dev nD) (W : Valuation τ sig (Elt F)) :
    (held (T d) bufs1 W : sProp 𝕄) = iprop((idsLoc d ↦{fullShare} W refIds) ∗ i3Loc d ↦{fullShare} W refI3) := by
  unfold held bufs1
  rw [SparseCore.bigSep_insert' (by decide), bigSep_singleton]
omit [FloatOps F] m in
theorem held_bufs2 (d : Dev nD) (W : Valuation τ sig (Elt F)) :
    (held (T d) bufs2 W : sProp 𝕄) = iprop((oLoc d ↦{fullShare} W refO) ∗ rLoc d ↦{fullShare} W refR) := by
  unfold held bufs2
  rw [SparseCore.bigSep_insert' (by decide), bigSep_singleton]

/-- The launch valuation; after the call, the flat result at the lookup. -/
def valLaunch (d : Dev nD) : Valuation τ sig (Elt F) := fun b => m (d, b)
def valCall (d : Dev nD) : Valuation τ sig (Elt F) := Function.update (valLaunch m d) refO (OutF m d)

theorem valCall_o (d : Dev nD) : valCall m d refO = OutF m d := Function.update_self _ _ _
theorem valCall_r (d : Dev nD) : valCall m d refR = m (rLoc d) := Function.update_of_ne (show refR ≠ refO by decide) _ _

/-- The first regrouping leaves the index words as they were and the regrouped words at `I3`. -/
theorem regroup1_ids (d : Dev nD) : (regroup1 (F := F)).result (valLaunch m d) refIds = m (idsLoc d) :=
  (regroup1 (F := F)).result_of_not_mem (valLaunch m d) (b := refIds) (show refIds ∉ ({refI3} : Finset (DevRef τ sig)) by decide)
theorem regroup1_i3 (d : Dev nD) : (regroup1 (F := F)).result (valLaunch m d) refI3 = I3 m d :=
  StableHlo.reshape_result main_arg0 main_v0 rfl Gen.shapeCasts_S4096x200_S32x200x128 _ _ (valLaunch m d)
/-- The second regrouping leaves the flat result as it was and the result at the flat result regrouped. -/
theorem regroup2_o (d : Dev nD) : (regroup2 (F := F)).result (valCall m d) refO = OutF m d :=
  ((regroup2 (F := F)).result_of_not_mem (valCall m d) (b := refO) (show refO ∉ ({refR} : Finset (DevRef τ sig)) by decide)).trans (valCall_o m d)
theorem regroup2_r (d : Dev nD) : (regroup2 (F := F)).result (valCall m d) refR = shapeCast S4096x200x128 (OutF m d) Gen.shapeCasts_S819200x128_S4096x200x128 := by
  rw [← valCall_o m d]
  exact StableHlo.reshape_result main_v1 main_v2 rfl Gen.shapeCasts_S819200x128_S4096x200x128 _ _ (valCall m d)

theorem regroup1_bufs : (regroup1 (F := F)).bufs ⊆ bufs1 := show ({refIds, refI3} : Finset (DevRef τ sig)) ⊆ bufs1 by decide
theorem regroup2_bufs : (regroup2 (F := F)).bufs ⊆ bufs2 := show ({refO, refR} : Finset (DevRef τ sig)) ⊆ bufs2 by decide

/-- What @main leaves the claim: the two arguments at their launch contents, the result at the flat lookup regrouped. -/
abbrev FIN (d : Dev nD) : sProp 𝕄 :=
  iprop((idsLoc d ↦{fullShare} m (idsLoc d)) ∗ (tblLoc d ↦{fullShare} m (tblLoc d))
    ∗ rLoc d ↦{fullShare} (shapeCast S4096x200x128 (OutF m d) Gen.shapeCasts_S819200x128_S4096x200x128))

/-- @main on device `d`'s TensorCore: the first regrouping, the call (the arrays cut into the workers' parts and joined
    again), the second regrouping. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hids, Htbl, Hv0, Hv1, Hv2⟩, -, -⟩, -⟩
  -- the first regrouping, over the index words and the regrouped words
  iapply (wp_hlo_within 𝒱 (SparseCore.T d) none Set.univ (op := regroup1) (S := bufs1) regroup1_bufs (V := valLaunch m d)) $$ [Hb Hids Hv0]
  · isplitl [Hb]; · iexact Hb
    rw [held_bufs1]
    isplitl [Hids]; · iexact Hids
    iexact Hv0
  iintro ⟨Hb, Hheld⟩
  ihave Hh := (Entails.of_eq (held_bufs1 (F := F) d _)) $$ Hheld
  rw [regroup1_ids, regroup1_i3]
  icases Hh with ⟨Hids, Hv0⟩
  rw [wp_ret]; imodintro
  -- the call: the three arrays cut into the 32 workers' parts, and joined again holding the lookup
  iapply ((K (F := F)).wp_run (D (F := F)) 𝒱 (EH := EH) (P := P m) κ d 0) $$ [Hst Hv0 Htbl Hv1 Hb Hids Hv2]
  isplitr; · iexact Hctx
  isplitl [Hst]; · iexact Hst
  isplitl [Hv0 Htbl Hv1]
  · rw [st0_eq]
    isplitl [Hv0]; · iexact Hv0
    isplitl [Htbl]; · iexact Htbl
    iexact Hv1
  iintro ⟨Hst, Hdn⟩
  ihave Hdn' := (Entails.of_eq (dn0_eq m d)) $$ Hdn
  icases Hdn' with ⟨-, Htbl, Hv1⟩
  -- the second regrouping, over the flat result and the result
  iapply (wp_hlo_within 𝒱 (SparseCore.T d) none Set.univ (op := regroup2) (S := bufs2) regroup2_bufs (V := valCall m d)) $$ [Hb Hv1 Hv2]
  · isplitl [Hb]; · iexact Hb
    rw [held_bufs2, valCall_o, valCall_r]
    isplitl [Hv1]; · iexact Hv1
    iexact Hv2
  iintro ⟨Hb, Hheld⟩
  ihave Hh := (Entails.of_eq (held_bufs2 (F := F) d _)) $$ Hheld
  rw [regroup2_o, regroup2_r]
  icases Hh with ⟨-, Hv2⟩
  rw [wp_ret]; imodintro; imodintro
  isplitl [Hst]; · iexact Hst
  isplitl [Hids]; · iexact Hids
  isplitl [Htbl]; · iexact Htbl
  iexact Hv2

/-! ## Reading the claim off the final memory -/

def fq (d : Dev nD) (s' : Phys nD τ sig (Elt F)) : Prop :=
  s'.mem.mem (rLoc d) = shapeCast S4096x200x128 (OutF m d) Gen.shapeCasts_S819200x128_S4096x200x128
    ∧ s'.mem.mem (idsLoc d) = m (idsLoc d) ∧ s'.mem.mem (tblLoc d) = m (tblLoc d)

theorem hfin (d : Dev nD) (s' : Phys nD τ sig (Elt F)) : iprop(FIN m d ∗ SI s') ⊢ (⌜fq m d s'⌝ : sProp 𝕄) := by
  iintro ⟨⟨Hi, Ht, Hr⟩, HSI⟩
  ihave H := (persistent_entails_right (SI_pointsTo_agree (st := s') (ℓ := idsLoc d) (I := Finset.univ) (q := fullShare) (f := m (idsLoc d)))) $$ [HSI Hi]
  · isplitl [HSI] <;> iassumption
  icases H with ⟨%h1, HSI, -⟩
  ihave H := (persistent_entails_right (SI_pointsTo_agree (st := s') (ℓ := tblLoc d) (I := Finset.univ) (q := fullShare) (f := m (tblLoc d)))) $$ [HSI Ht]
  · isplitl [HSI] <;> iassumption
  icases H with ⟨%h2, HSI, -⟩
  ihave H := (SI_pointsTo_agree (st := s') (ℓ := rLoc d) (I := Finset.univ) (q := fullShare)
    (f := shapeCast S4096x200x128 (OutF m d) Gen.shapeCasts_S819200x128_S4096x200x128)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device ends with the result holding the lookup over the index words and the table, and both unchanged. -/
def QC : PUnit × MemSt nD τ sig (Elt F) → Prop := fun r =>
  ∀ c : Dev nD, r.2.mem (rLoc c) = Cert.Spec.G (m (idsLoc c)) (m (tblLoc c)) ∧ r.2.mem (idsLoc c) = m (idsLoc c) ∧ r.2.mem (tblLoc c) = m (tblLoc c)

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).1.trans (result_eq m c), (h c).2⟩)

end Cert.Proof.KB

end
-- ==== Proof.KBRun.lean ====
/-
  The kernel's run: when every index word names a table row, every execution of the 35 threads ends with
  the result holding the lookup of the table at the index words, the two arguments unchanged.
-/
import proofs.«202864_g79886391705942_cont_9to1_m_381_1_alg».proof.Proof.KBObl
import proofs.«202864_g79886391705942_cont_9to1_m_381_1_alg».proof.Proof.KBLaunch

noncomputable section

namespace Cert.Proof.KB

open Cert.Kernel Cert.Kernel.Gen
open Idealize.ShloMosaic Idealize.SL.Sem

variable {F : FTy → Type} [FloatOps F]

theorem run [∀ e, Nonempty (Elt F e)] (m : (ℓ : Loc nD τ sig) → Buf (Elt F) ℓ) (ρ : Dev nD → PrngReg)
    (hr : ∀ (d : Dev nD) (i : S4096x200.Idx), (m (idsLoc d) i).toNat < 1000) :
    θ_run (Cert.Kernel.defs (F := F)) (Cert.Kernel.threads (F := F)) ⟨m, fun _ => 0, ρ⟩ (QC m) :=
  run_main m ρ (tileObl m facts (I3_lt m hr))

end Cert.Proof.KB

end
-- ==== Proof.lean ====
/-
  A table lookup done by 32 workers is the lookup done whole.

  The arguments are 4096 x 200 index words and a table of 1000 rows of 128 entries; the result has, at (b, n, l),
  entry l of the table row named by the word at (b, n).  The precondition says every table entry is finite and every
  word lies in 0 ... 999, so every word names a row.

  The kernel regroups the words 32 x 200 x 128, has worker w = 2 s + c (subcore s of SparseCore c) copy row w of the
  regrouped words and, 200 times, fetch the 128 table rows its k-th 128 words name and write them to rows
  25600 w + 128 k ... + 127 of a flat array of 819200 rows, and regroups the flat array 4096 x 200 x 128.  Row
  r = 200 b + n of the flat array is written by worker r / 25600 in trip r % 25600 / 128 at position r % 128, from the
  word at that place of the regrouped words, which is the word at (b, n): the result is the lookup.  The workers'
  row blocks are disjoint and cover the flat array, the words and the table are only read, so every execution of the
  threads ends, with the arguments unchanged.

  The reference computes the same lookup on the host: it adds 1000 to negative words, gathers with the start index
  clamped into 0 ... 999, and replaces rows whose word is out of range by a NaN pattern; with every word in range
  none of the three changes anything.

  Both programs are pure data movement, so the equality holds entry by entry at any reading of the floats; no
  arithmetic on the extended reals is involved, and the ideal pass rewrote nothing (its ledger is empty).
-/
import proofs.«202864_g79886391705942_cont_9to1_m_381_1_alg».proof.Defs
import proofs.«202864_g79886391705942_cont_9to1_m_381_1_alg».proof.Proof.Gen.Kernel
import proofs.«202864_g79886391705942_cont_9to1_m_381_1_alg».proof.Proof.Gen.Kernel.Skeleton
import proofs.«202864_g79886391705942_cont_9to1_m_381_1_alg».proof.Proof.Gen.KernelIdeal
import proofs.«202864_g79886391705942_cont_9to1_m_381_1_alg».proof.Proof.Gen.KernelIdeal.Skeleton
import proofs.«202864_g79886391705942_cont_9to1_m_381_1_alg».proof.Proof.Gen.ReferenceIdeal
import proofs.«202864_g79886391705942_cont_9to1_m_381_1_alg».proof.Proof.Gen.Pre_input_domain
import Idealize.ShloMosaic.Adequacy
import Idealize.ShloMosaic.Init
import proofs.«202864_g79886391705942_cont_9to1_m_381_1_alg».proof.Proof.Range
import proofs.«202864_g79886391705942_cont_9to1_m_381_1_alg».proof.Proof.RefRun
import proofs.«202864_g79886391705942_cont_9to1_m_381_1_alg».proof.Proof.KIRun
import proofs.«202864_g79886391705942_cont_9to1_m_381_1_alg».proof.Proof.KBRun

noncomputable section

namespace Cert.Proof

open Idealize.ShloMosaic Idealize.SL.Sem

/-- The kernel as printed runs to the end and keeps its arguments: its run, the value dropped. -/
theorem frame_k : Cert.frame_Kernel := fun m g hpre =>
  (θ_run (Cert.Kernel.defs (F := Bits)) _ _).mono (fun _ h c => (h c).2)
    (Cert.Proof.KB.run (F := Bits) m g (fun d i => Cert.Proof.Range.of_pre _ _ (hpre d) i))

/-- The same for the kernel read over the extended reals. -/
theorem frame_ki : Cert.frame_KernelIdeal := fun m g hpre =>
  (θ_run (Cert.KernelIdeal.defs (F := Ideal)) _ _).mono (fun _ h c => (h c).2)
    (Cert.Proof.KI.run (F := Ideal) m g (fun d i => Cert.Proof.Range.of_pre _ _ (hpre d) i))

/-- The reference runs to the end and keeps its arguments. -/
theorem frame_ri : Cert.frame_ReferenceIdeal := fun m g hpre =>
  (θ_run (Cert.ReferenceIdeal.defs (F := Ideal)) _ _).mono (fun _ h c => (h c).2) (Cert.Proof.Ref.run m g hpre)

/-- From memories that agree on the arguments both programs end with the lookup of the table at the index words. -/
theorem algebraic : Cert.algebraic_KernelIdeal_ReferenceIdeal := by
  intro m g m' g' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KI.run (F := Ideal) m g (fun d i => Cert.Proof.Range.of_pre _ _ (hpre d) i), ?_⟩
  exact (θ_run (Cert.ReferenceIdeal.defs (F := Ideal)) _ _).mono
    (fun _ h c => ⟨by rw [(h c).1, (hagree c).1, (hagree c).2], (h c).2⟩)
    (Cert.Proof.Ref.run m' g' (fun c => by rw [(hagree c).1, (hagree c).2]; exact hpre c))

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
